-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg1 : FVec F S128 .f32) (main_arg3 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_cst_6 : FVec F S_ .f32 := constant S_ .f32 0x00000000#32
  let main_v19 : FVec F S128 .f32 := broadcastInDim S128 ![] bcast_S_S128 main_cst_6
  let main_v20 : IVec S128 1 := cmpf .oge main_arg1 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v18 main_v21
  let main_cst_8 : FVec F S_ .f32 := constant S_ .f32 0x00000000#32
  let main_v23 : FVec F S128 .f32 := broadcastInDim S128 ![] bcast_S_S128 main_cst_8
  let main_v24 : IVec S128 1 := cmpf .oge main_arg3 main_v23
  let main_c_9 : IVec S_ 1 := constantI S_ 1 1#1
  let main_v25 : IVec S_ 1 := (fun x v => Host.reduce IntOp.andi x v reducesTo_S128_S_d0 h_S_) main_v24 main_c_9
  let main_v26 : IVec S_ 1 := andi main_v22 main_v25
  main_v26

def fn {F : FTy → Type} [FloatOps F] (main_arg0 : FVec F S1000000x128 .f32) (main_arg1 : FVec F S128 .f32) (main_arg2 : FVec F S128 .f32) (main_arg3 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg3 main_v13 main_v16
-- ==== Kernel.lean ====
abbrev S1000000x128 : Shape := ⟨2, ![1000000, 128]⟩
abbrev S128 : Shape := ⟨1, ![128]⟩
abbrev S2x1x128 : Shape := ⟨3, ![2, 1, 128]⟩
abbrev S50000x128 : Shape := ⟨2, ![50000, 128]⟩
abbrev S1x1x128 : Shape := ⟨3, ![1, 1, 128]⟩
abbrev S1x128 : Shape := ⟨2, ![1, 128]⟩
abbrev S28800x128 : Shape := ⟨2, ![28800, 128]⟩

abbrev nBuf : Space → Nat
  | .hbm => 10
  | .vmem => 15
  | .smem => 0
  | _ => 0

abbrev bufTy : (tb : Table) → Fin (tcTables nBuf tb) → BufTy
  | .hbm, ⟨0, _⟩ => ⟨S1000000x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S2x1x128, .f32⟩
  | .hbm, ⟨5, _⟩ => ⟨S2x1x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1000000x128, .f32⟩
  | .local _ .vmem, ⟨0, _⟩ => ⟨S50000x128, .f32⟩
  | .local _ .vmem, ⟨1, _⟩ => ⟨S50000x128, .f32⟩
  | .local _ .vmem, ⟨2, _⟩ => ⟨S1x1x128, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S28800x128, .f32⟩
  | .local _ .vmem, ⟨7, _⟩ => ⟨S28800x128, .f32⟩
  | .local _ .vmem, ⟨8, _⟩ => ⟨S2x1x128, .f32⟩
  | .local _ .vmem, ⟨9, _⟩ => ⟨S2x1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S28800x128, .f32⟩
  | .local _ .vmem, ⟨14, _⟩ => ⟨S28800x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![2, 10], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_2 : BitVec 32 := 0#32
  let v8 : BitVec 1 := Scalar.cmpi .ne v7 c0_i32_2
  v8

def k0_cond2 (i : grid0.Coords) : BitVec 1 :=
  let arg1 : BitVec 32 := BitVec.ofNat 32 (i 1).val
  let c0_i32_3 : BitVec 32 := 0#32
  let v9 : BitVec 1 := Scalar.cmpi .ne arg1 c0_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S50000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![35], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S28800x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S28800x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S50000x128_S50000x128_0_0 : ∀ a, (![0, 0] : Fin 2 → Nat) a + S50000x128.size a ≤ S50000x128.size a
  h_S50000x128 : 0 < S50000x128.numel
  reduces_S50000x128_S128 : S50000x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S2x1x128_S2x1x128_0_0_0 : ∀ a, (![0, 0, 0] : Fin 3 → Nat) a + S2x1x128.size a ≤ S2x1x128.size a
  h_S2x1x128 : 0 < S2x1x128.numel
  shapeCasts_S2x1x128_S2x1x128 : S2x1x128.ShapeCasts S2x1x128
  reduces_S2x1x128_S1x128 : S2x1x128.Reduces [0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S28800x128_S28800x128_0_0 : ∀ a, (![0, 0] : Fin 2 → Nat) a + S28800x128.size a ≤ S28800x128.size a
  h_S28800x128 : 0 < S28800x128.numel
  broadcasts_S1x128_S28800x128 : S1x128.Broadcasts S28800x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50000x128.size a ≤ S1000000x128.size a
  hwx0_0 : ∀ i : grid0.Coords, EltTy.bits .f32 = 32 ∨ (Rect.block (s := S1000000x128) S50000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S2x1x128.size a
  hwx0_1 : ∀ i : grid0.Coords, EltTy.bits .f32 = 32 ∨ (Rect.block (s := S2x1x128) S1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S28800x128.size a < S1000000x128.size a
  hwx1_0 : ∀ i : grid1.Coords, EltTy.bits .f32 = 32 ∨ (Rect.unit (s := S1000000x128) (fun a => cc1_transform_0 i a * S28800x128.size a) (fun a => (Pipeline.Clip.of (cc1_transform_0 i a) (S28800x128.size a) (S1000000x128.size a)).extent (S28800x128.size a)) fun a => Pipeline.Clip.inb (Pipeline.Clip.ok_of (hstart1_0 i a))).WholeWords (EltTy.packing .f32)
  hwxs1_0 : ∀ i : grid1.Coords, EltTy.bits .f32 = 32 ∨ (Rect.unit (s := S28800x128) (fun _ => 0) (fun a => (Pipeline.Clip.of (cc1_transform_0 i a) (S28800x128.size a) (S1000000x128.size a)).extent (S28800x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x1x128.size a ≤ S2x1x128.size a
  hwx1_1 : ∀ i : grid1.Coords, EltTy.bits .f32 = 32 ∨ (Rect.block (s := S2x1x128) S2x1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x1x128.size a ≤ S2x1x128.size a
  hwx1_2 : ∀ i : grid1.Coords, EltTy.bits .f32 = 32 ∨ (Rect.block (s := S2x1x128) S2x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S28800x128.size a < S1000000x128.size a
  hwx1_6 : ∀ i : grid1.Coords, EltTy.bits .f32 = 32 ∨ (Rect.unit (s := S1000000x128) (fun a => cc1_transform_6 i a * S28800x128.size a) (fun a => (Pipeline.Clip.of (cc1_transform_6 i a) (S28800x128.size a) (S1000000x128.size a)).extent (S28800x128.size a)) fun a => Pipeline.Clip.inb (Pipeline.Clip.ok_of (hstart1_6 i a))).WholeWords (EltTy.packing .f32)
  hwxs1_6 : ∀ i : grid1.Coords, EltTy.bits .f32 = 32 ∨ (Rect.unit (s := S28800x128) (fun _ => 0) (fun a => (Pipeline.Clip.of (cc1_transform_6 i a) (S28800x128.size a) (S1000000x128.size a)).extent (S28800x128.size a)) fun a => (Nat.zero_add _).trans_le (Pipeline.Clip.extent_le (Pipeline.Clip.ok_of (hstart1_6 i a)))).WholeWords (EltTy.packing .f32)

variable [Facts₀]

abbrev win0_0 : Pipeline.Window sig grid0 :=
  Pipeline.Window.ofSpec (Memref.whole main_arg0) S50000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpecClip (Memref.whole main_arg0) S28800x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v0_0) S2x1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S2x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpecClip (Memref.whole main_v4) S28800x128.size cc1_transform_6 reads1_6 true false 2 stage1_6 sem1_6
    hrank1 hreads1_6 hstart1_6 nbuf1_6 (Memref.isWhole_whole _) hwx1_6 hwxs1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S128 : Shape := ⟨1, ![128]⟩
abbrev S_ : Shape := ⟨0, ![]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S1000000x128, .f32⟩
  | .hbm, ⟨11, _⟩ => ⟨S1000000x128, .f32⟩
  | .hbm, ⟨12, _⟩ => ⟨S1000000x128, .f32⟩
  | .hbm, ⟨13, _⟩ => ⟨S_, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S1000000x128, .f32⟩
  | .hbm, ⟨45, _⟩ => ⟨S1000000x128, .f32⟩
  | .hbm, ⟨46, _⟩ => ⟨S1x128, .f32⟩
  | .hbm, ⟨47, _⟩ => ⟨S1000000x128, .f32⟩
  | .hbm, ⟨48, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  reducesTo_S1000000x128_S128_d0 : S1000000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)

variable [Facts₀]

class Facts : Prop extends Facts₀ where

variable [Facts]
-- ==== Proof.StatsHalf.lean ====
/-
  The statistics pass, one grid point at a time.

  The grid is two chunks of ten points.  At each point the body reads one block of fifty thousand rows and forms its
  column sums and column sums of squares; at the first point of a chunk it stores them in the two output buffers, at
  every other point it adds them to what the buffers hold.  The output block of a chunk is revisited by all ten of its
  points, so between points of one chunk the buffers keep their contents: the accumulators `acc1`, `acc2` (defined by
  recursion on the point) are what the two buffers hold after each point.  With these as the proof data's contents,
  the body's triple at a generic point — by cases on which of the two conditionals holds there — is the pipeline's body
  obligation.  Stated at any float instance and at any contents `V` of the buffers the region is entered with.
-/
import proofs.«173824_g90340342104516_pilotgen1_308_12_alg».proof.Proof.Gen.KernelIdeal.Launch
import proofs.«173824_g90340342104516_pilotgen1_308_12_alg».proof.Proof.Gen.KernelIdeal.Skeleton
import proofs.«173824_g90340342104516_pilotgen1_308_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

/-- The first conditional (second grid coordinate zero) holds exactly at the first point of each chunk of ten. -/
theorem hcond1 : ∀ t : Fin cfg0.N, k0_cond1 (grid0.coords t) = 1#1 ↔ t.val % 10 = 0 :=
  (by decide +kernel : ∀ t : Fin grid0.N, k0_cond1 (grid0.coords t) = 1#1 ↔ t.val % 10 = 0)

/-- The second conditional (second grid coordinate nonzero) holds exactly at the other points. -/
theorem hcond2 : ∀ t : Fin cfg0.N, k0_cond2 (grid0.coords t) = 1#1 ↔ t.val % 10 ≠ 0 :=
  (by decide +kernel : ∀ t : Fin grid0.N, k0_cond2 (grid0.coords t) = 1#1 ↔ t.val % 10 ≠ 0)

/-- One of the two conditionals holds at every point, so no point is idle for an output window. -/
theorem idle1 : ∀ t : Fin cfg0.N, cfg0.idle 1 (cfg0.grid.coords t) = false :=
  (by decide +kernel : ∀ t : Fin grid0.N, idle0 1 (grid0.coords t) = false)
theorem idle2 : ∀ t : Fin cfg0.N, cfg0.idle 2 (cfg0.grid.coords t) = false :=
  (by decide +kernel : ∀ t : Fin grid0.N, idle0 2 (grid0.coords t) = false)

/-! ## The body's accesses -/

/-- The whole input block. -/
abbrev rx : Rect S50000x128 := Rect.unit (s := S50000x128) ![0, 0] S50000x128.size inb_S50000x128_S50000x128_0_0
/-- The whole output block. -/
abbrev ro : Rect S1x1x128 := Rect.unit (s := S1x1x128) ![0, 0, 0] S1x1x128.size inb_S1x1x128_S1x1x128_0_0_0

theorem hz2 : (![0, 0] : Fin 2 → Nat) = fun _ => 0 := funext fun a => by fin_cases a <;> rfl
theorem hz3 : (![0, 0, 0] : Fin 3 → Nat) = fun _ => 0 := funext fun a => by fin_cases a <;> rfl

/-- One store of the whole output block covers it. -/
theorem cover_o (p0 : Vec F S1x1x128 .f32) (y : S1x1x128.Idx) :
    ∃ pc ∈ ([⟨ro, p0⟩] : List (View.Piece (Elt F) S1x1x128 .f32)), y ∈ pc.1.set :=
  ⟨_, List.mem_singleton_self _, View.mem_set_unit_zero (S := S1x1x128) hz3 inb_S1x1x128_S1x1x128_0_0_0 y⟩

/-! ## The body's triple, per case of its two conditionals -/

set_option maxHeartbeats 1000000 in
/-- At a point where the first conditional holds and the second fails, the body on whole staging memrefs — the
    input's at `x0`, the outputs' at anything — runs to the continuation holding the input's as it was and the
    outputs' at the block's column sums and column sums of squares. -/
theorem sound_kernel_first (c : Dev nD) (E : Set ℕ) (i : grid0.Coords)
    (arg2 : Memref sig .tc .vmem S50000x128 .f32) (harg2 : arg2.IsWhole)
    (arg3 : Memref sig .tc .vmem S1x1x128 .f32) (harg3 : arg3.IsWhole)
    (arg4 : Memref sig .tc .vmem S1x1x128 .f32) (harg4 : arg4.IsWhole)
    (h1 : k0_cond1 i = 1#1) (h2 : ¬k0_cond2 i = 1#1)
    (x0 : Vec F S50000x128 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (k0_pay3 x0)
            ∗ owns (c : Thread nD τ) arg4 fullShare (k0_pay4 x0)) -∗ K ⟨⟩))
      ⊢ wp frame (wpE (defs₀ (F := F)) Variants.none c none) E (cc0_vnorm_stats i arg2 harg2 arg3 harg3 arg4 harg4) K := by
  simp only [cc0_vnorm_stats_eq_skeleton]; unfold cc0_vnorm_stats_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover_o _)).trans ?_
    rw [View.canon_unit_zero (S := S1x1x128) hz3]
    exact congrArg k0_pay3 (View.ld_unit_zero (S := S50000x128) hz2 _ _)
  · iexists _; isplitr
    swap; · iexact H2
    ipureintro
    refine (View.read_writes_eq_canon _ _ _ (cover_o _)).trans ?_
    rw [View.canon_unit_zero (S := S1x1x128) hz3]
    exact congrArg k0_pay4 (View.ld_unit_zero (S := S50000x128) hz2 _ _)

set_option maxHeartbeats 1000000 in
/-- At a point where the first conditional fails and the second holds, the body on whole staging memrefs — the
    input's at `x0`, the outputs' at `p1`, `p2` — runs to the continuation holding the input's as it was and the
    outputs' at what they held plus the block's column sums and column sums of squares. -/
theorem sound_kernel_next (c : Dev nD) (E : Set ℕ) (i : grid0.Coords)
    (arg2 : Memref sig .tc .vmem S50000x128 .f32) (harg2 : arg2.IsWhole)
    (arg3 : Memref sig .tc .vmem S1x1x128 .f32) (harg3 : arg3.IsWhole)
    (arg4 : Memref sig .tc .vmem S1x1x128 .f32) (harg4 : arg4.IsWhole)
    (h1 : ¬k0_cond1 i = 1#1) (h2 : k0_cond2 i = 1#1)
    (x0 : Vec F S50000x128 .f32) (p1 p2 : Vec F S1x1x128 .f32) (K : PUnit → sProp 𝕄) :
    iprop(owns (c : Thread nD τ) arg2 fullShare x0 ∗ owns (c : Thread nD τ) arg3 fullShare p1 ∗ owns (c : Thread nD τ) arg4 fullShare p2
        ∗ (iprop(owns (c : Thread nD τ) arg2 fullShare x0 ∗ owns (c : Thread nD τ) arg3 fullShare (k0_pay5 x0 p1)
            ∗ owns (c : Thread nD τ) arg4 fullShare (k0_pay6 x0 p2)) -∗ K ⟨⟩))
      ⊢ wp frame (wpE (defs₀ (F := F)) Variants.none c none) E (cc0_vnorm_stats i arg2 harg2 arg3 harg3 arg4 harg4) K := by
  simp only [cc0_vnorm_stats_eq_skeleton]; unfold cc0_vnorm_stats_skel
  unfold owns
  iintro ⟨⟨%f0, %hf0, H0⟩, ⟨%f1, %hf1, H1⟩, ⟨%f2, %hf2, H2⟩, Hk⟩
  subst hf0; subst hf1; subst hf2
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover_o _)).trans ?_
    rw [View.canon_unit_zero (S := S1x1x128) hz3]
    exact congrArg₂ k0_pay5 (View.ld_unit_zero (S := S50000x128) hz2 _ _) (View.ld_unit_zero (S := S1x1x128) hz3 _ _)
  · iexists _; isplitr
    swap; · iexact H2
    ipureintro
    refine (View.read_writes_eq_canon _ _ _ (cover_o _)).trans ?_
    rw [View.canon_unit_zero (S := S1x1x128) hz3]
    exact congrArg₂ k0_pay6 (View.ld_unit_zero (S := S50000x128) hz2 _ _) (View.ld_unit_zero (S := S1x1x128) hz3 _ _)

/-! ## The accumulators -/

/-- No coordinates are idle for an output window: one of the two conditionals holds. -/
theorem hlive1 : ∀ i : grid0.Coords, cfg0.idle 1 i = false := by decide
theorem hlive2 : ∀ i : grid0.Coords, cfg0.idle 2 i = false := by decide

/-- What the first output's staging buffer holds after the body at position `n`: at the first point of a chunk of
    ten the block's column sums, at any other point those added to what the point before left. -/
def acc1 (c : Dev nD) : (n : ℕ) → n < cfg0.N → Vec F S1x1x128 .f32
  | 0, hn => k0_pay3 (iblk V c 0 ⟨0, hn⟩)
  | n + 1, hn =>
    if (n + 1) % 10 = 0 then k0_pay3 (iblk V c 0 ⟨n + 1, hn⟩)
    else k0_pay5 (iblk V c 0 ⟨n + 1, hn⟩) (acc1 c n (Nat.lt_of_succ_lt hn))

/-- The same for the second output: the column sums of squares. -/
def acc2 (c : Dev nD) : (n : ℕ) → n < cfg0.N → Vec F S1x1x128 .f32
  | 0, hn => k0_pay4 (iblk V c 0 ⟨0, hn⟩)
  | n + 1, hn =>
    if (n + 1) % 10 = 0 then k0_pay4 (iblk V c 0 ⟨n + 1, hn⟩)
    else k0_pay6 (iblk V c 0 ⟨n + 1, hn⟩) (acc2 c n (Nat.lt_of_succ_lt hn))

theorem acc1_first (c : Dev nD) (t : Fin cfg0.N) (h0 : t.val % 10 = 0) :
    acc1 V c t.val t.isLt = k0_pay3 (iblk V c 0 t) := by
  obtain ⟨n, hn⟩ := t
  cases n with
  | zero => exact rfl
  | succ n => exact (if_pos h0).trans rfl

theorem acc1_next (c : Dev nD) (t : Fin cfg0.N) (h0 : ¬t.val % 10 = 0) :
    acc1 V c t.val t.isLt = k0_pay5 (iblk V c 0 t) (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem acc2_first (c : Dev nD) (t : Fin cfg0.N) (h0 : t.val % 10 = 0) :
    acc2 V c t.val t.isLt = k0_pay4 (iblk V c 0 t) := by
  obtain ⟨n, hn⟩ := t
  cases n with
  | zero => exact rfl
  | succ n => exact (if_pos h0).trans rfl

theorem acc2_next (c : Dev nD) (t : Fin cfg0.N) (h0 : ¬t.val % 10 = 0) :
    acc2 V c t.val t.isLt = k0_pay6 (iblk V c 0 t) (acc2 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the first pipeline on core `c`: the arrays as the region finds them; after the body at point
    `t` the input's buffer at its block and the outputs' at the accumulators; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => acc1 V c t.val t.isLt
    | ⟨2, _⟩ => acc2 V c t.val t.isLt
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = acc1 V c t.val t.isLt := by dsimp only [dat]
theorem after2 (c : Dev nD) (t : Fin cfg0.N) : (dat V c).after 2 t = acc2 V c t.val t.isLt := by dsimp only [dat]

/-- The input's current staging buffer holds its block at every point. -/
theorem before0 (c : Dev nD) (t : Fin cfg0.N) (d) : (dat V c).before 0 t d = iblk V c 0 t :=
  before0_of V (dat V c) (A_eq V c 0) (after0 V c) t d

/-- At a point that is not the first of its chunk an output's current staging buffer holds what the body left at
    the point before: the point is not the first, the buffer was not written back between (only the last point of
    a chunk writes back), the window is live and uncut. -/
theorem before1_next (c : Dev nD) (t : Fin cfg0.N) (h0 : ¬t.val % 10 = 0) (d) :
    (dat V c).before 1 t d = acc1 V c (t.val - 1) (Nat.lt_of_le_of_lt (Nat.sub_le _ _) t.isLt) := by
  have hN : t.val < 20 := lt_of_lt_of_eq t.isLt (show cfg0.N = 20 from N_0)
  rw [Dat.before_out_kept _ 1 rfl t (by omega) (Bool.eq_false_iff.mpr fun h => by have := (flush0_1 _).mp h; dsimp only at this; omega)
    hlive1 (fun _ _ => rfl)]
  dsimp only [dat]

theorem before2_next (c : Dev nD) (t : Fin cfg0.N) (h0 : ¬t.val % 10 = 0) (d) :
    (dat V c).before 2 t d = acc2 V c (t.val - 1) (Nat.lt_of_le_of_lt (Nat.sub_le _ _) t.isLt) := by
  have hN : t.val < 20 := lt_of_lt_of_eq t.isLt (show cfg0.N = 20 from N_0)
  rw [Dat.before_out_kept _ 2 rfl t (by omega) (Bool.eq_false_iff.mpr fun h => by have := (flush0_2 _).mp h; dsimp only at this; omega)
    hlive2 (fun _ _ => rfl)]
  dsimp only [dat]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

set_option maxHeartbeats 800000 in
/-- The body at any point: the input's memref holds its block; the point is the first of its chunk or not, and in
    the second case the outputs' memrefs hold what the point before left; so the matching triple applies; the
    invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).Φ t.succ = (dat V c).Φ t.castSucc from rfl,
    show (dat V c).owesAt () t.succ = (dat V c).owesAt () t.castSucc from rfl,
    after0, after1, after2]
  by_cases h0 : t.val % 10 = 0
  · rw [acc1_first V c t h0, acc2_first V c t h0]
    iintro ⟨HΦ, Ho, ⟨%d0, H0⟩, ⟨%d1, H1⟩, ⟨%d2, H2⟩⟩
    iapply (sound_kernel_first c Set.univ (grid0.coords t) _ _ _ _ _ _ ((hcond1 t).mpr h0) (fun h => (hcond2 t).mp h h0) (iblk V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc1_next V c t h0, acc2_next V c t h0]
    simp only [before1_next V c t h0, before2_next V c t h0]
    iintro ⟨HΦ, Ho, ⟨%d0, H0⟩, ⟨%d1, H1⟩, ⟨%d2, H2⟩⟩
    iapply (sound_kernel_next c Set.univ (grid0.coords t) _ _ _ _ _ _ (fun h => h0 ((hcond1 t).mp h)) ((hcond2 t).mpr h0) (iblk V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point: no point is idle for an output window. -/
theorem body_obligation (c : Dev nD) : BodyObligation (dat (F := F) V c) (defs₀ (F := F)) Variants.none () Set.univ := fun t => by
  -- the two output windows' idleness is one function of the coordinates: one rewrite reaches both
  rw [bigSep_W0, bigSep_W0, idle1 t]
  exact sound_body V c t

end Cert.KernelIdeal.Stats

end
-- ==== Proof.ApplyHalf.lean ====
/-
  The normalisation pass, one grid point at a time.

  Thirty-five points, one block of 28800 rows each, the last overhanging the array's end.  The body loads the data
  block, the two partial-sum arrays and the three running statistics (whole, the same at every point), computes the
  new mean and the new variance per column, and stores `(x − new_mean) · rsqrt (variance + ε)` over the whole output
  buffer.  The proof data name each buffer's contents after the body: the data block filled out past the array's end,
  the five statistics arrays, and the store's value; the rows of the output inside the array do not depend on what
  fills the data buffer past the array's end.  The body's triple at a generic point is the pipeline's body obligation
  in its loose form (two windows are cut at the last point).  Stated at any float instance and at any contents `V` of
  the buffers the region is entered with.
-/
import proofs.«173824_g90340342104516_pilotgen1_308_12_alg».proof.Proof.Gen.KernelIdeal.Launch
import proofs.«173824_g90340342104516_pilotgen1_308_12_alg».proof.Proof.Gen.KernelIdeal.Skeleton
import proofs.«173824_g90340342104516_pilotgen1_308_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Apply

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the normalisation pass, at the region-entry contents `V` -/

/-- Window `w`'s block at point `t` (its part inside the array), read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store are of a whole buffer -/

abbrev rX : Rect S28800x128 := Rect.unit (s := S28800x128) ![0, 0] S28800x128.size inb_S28800x128_S28800x128_0_0
abbrev rP : Rect S2x1x128 := Rect.unit (s := S2x1x128) ![0, 0, 0] S2x1x128.size inb_S2x1x128_S2x1x128_0_0_0
abbrev rS : Rect S1x128 := Rect.unit (s := S1x128) ![0, 0] S1x128.size inb_S1x128_S1x128_0_0

/-- The new mean per column, from the partial sums `x1`, the running count `x3` and the running mean `x4`. -/
def newMean (x1 : Vec F S2x1x128 .f32) (x3 x4 : Vec F S1x128 .f32) : FVec F S1x128 .f32 :=
  k1_pay7 (View.ld x1 rP) (View.ld x3 rS) (View.ld x4 rS)

/-- The new variance per column (the new centred second moment over `max (new count - 1) 1`), from the partial sums
    `x1`, the partial sums of squares `x2`, and the running count, mean and second moment `x3`, `x4`, `x5`. -/
def newVar (x1 x2 : Vec F S2x1x128 .f32) (x3 x4 x5 : Vec F S1x128 .f32) : FVec F S1x128 .f32 :=
  k1_pay8 (View.ld x1 rP) (View.ld x2 rP) (View.ld x3 rS) (View.ld x4 rS) (View.ld x5 rS)

/-- The output window's staging buffer after the body, from the six input buffers: its one store, of the whole buffer. -/
def out6 (x0 : Vec F S28800x128 .f32) (x1 x2 : Vec F S2x1x128 .f32) (x3 x4 x5 : Vec F S1x128 .f32) : Vec F S28800x128 .f32 :=
  View.canon [⟨rX, k1_pay1 (newMean x1 x3 x4) (newVar x1 x2 x3 x4 x5) (Scalar.ofBits .f32 0x3727C5AC#32) (View.ld x0 rX)⟩]

/-- The store covers the buffer. -/
theorem cover6 (p0 : Vec F S28800x128 .f32) (y : S28800x128.Idx) :
    ∃ pc ∈ ([⟨rX, p0⟩] : List (View.Piece (Elt F) S28800x128 .f32)), y ∈ pc.1.set :=
  View.cover_of_tiled [⟨rX, p0⟩] S28800x128.size (by rfl) y

set_option maxHeartbeats 1000000 in
/-- The body on whole staging memrefs, the six inputs' at read contents `x0` … `x5` and the output's at anything
    (the body loads it once and uses nothing of it), runs to the continuation holding the inputs' as they were and the
    output's at `out6` of the inputs'. -/
theorem sound_kernel (c : Dev nD) (E : Set ℕ) (i : grid1.Coords)
    (arg1 : Memref sig .tc .vmem S28800x128 .f32) (harg1 : arg1.IsWhole)
    (arg2 : Memref sig .tc .vmem S2x1x128 .f32) (harg2 : arg2.IsWhole)
    (arg3 : Memref sig .tc .vmem S2x1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S28800x128 .f32) (harg7 : arg7.IsWhole)
    (x0 : Vec F S28800x128 .f32) (x1 x2 : Vec F S2x1x128 .f32) (x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E
          (cc1_vnorm_apply i arg1 harg1 arg2 harg2 arg3 harg3 arg4 harg4 arg5 harg5 arg6 harg6 arg7 harg7) K := by
  simp only [cc1_vnorm_apply_eq_skeleton, k1_part1_eq_skeleton]; unfold cc1_vnorm_apply_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H7
  ipureintro
  exact View.read_writes_eq_canon _ _ _ (cover6 _)

/-! ## The store's closed form: elementwise in the data block -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The one store covers the buffer and every load is of a whole buffer: the output buffer after the body is the
    store's payload of the inputs' contents. -/
theorem out6_eq (x0 : Vec F S28800x128 .f32) (x1 x2 : Vec F S2x1x128 .f32) (x3 x4 x5 : Vec F S1x128 .f32) :
    out6 x0 x1 x2 x3 x4 x5
      = k1_pay1 (newMean x1 x3 x4) (newVar x1 x2 x3 x4 x5) (Scalar.ofBits .f32 0x3727C5AC#32) x0 := by
  unfold out6
  rw [View.canon_unit_zero zeros2, View.ld_unit_zero zeros2]

/-- At each entry the output is `(x - new mean) * rsqrt (new variance + eps)` of the data block's entry there and of
    the column's statistics: of the data block it reads that entry and no other. -/
theorem out6_apply (x0 : Vec F S28800x128 .f32) (x1 x2 : Vec F S2x1x128 .f32) (x3 x4 x5 : Vec F S1x128 .f32) (y : S28800x128.Idx) :
    out6 x0 x1 x2 x3 x4 x5 y
      = FloatOps.mulf (FloatOps.subf (x0 y) (broadcastTo S28800x128 (newMean x1 x3 x4) broadcasts_S1x128_S28800x128 y))
          (broadcastTo S28800x128 (rsqrt (addf (newVar x1 x2 x3 x4 x5) (broadcast S1x128 (Scalar.ofBits .f32 0x3727C5AC#32))))
            broadcasts_S1x128_S28800x128 y) := by
  rw [out6_eq]; rfl

/-! ## The pipeline's proof data -/

/-- The data window's staging buffer as the proof data name it: the block's rows inside the array, filled out past the
    array's end (the last block overhangs it) with the zero word, which nothing reads. -/
def xblkF (c : Dev nD) (t : Fin cfg1.N) : S28800x128.Idx → Elt F .f32 :=
  win1_0.fill (grid1.coords t) (fun _ => Scalar.ofBits .f32 0#32) (iblk V c 0 t)

/-- The proof data of the pipeline on core `c`: the arrays as the region finds them; after the body at point `t` the
    data window's buffer at its block (filled out: `xblkF`), the five statistics windows' at their whole arrays, and
    the output's at `out6` of those; the invariant the scoped rest and the generator register, untouched; nothing owed;
    full shares. -/
def dat (c : Dev nD) : Dat τ (Elt F) Unit ℕ (UR sig nD τ) ℕ cfg1 c where
  A w := V c (Pipeline.arrRef spec1 w)
  after w t := match w with
    | ⟨0, _⟩ => xblkF V c t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (xblkF V c t) (iblk V c 1 t) (iblk V c 2 t) (iblk V c 3 t) (iblk V c 4 t) (iblk V c 5 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after0 (c : Dev nD) (t : Fin cfg1.N) : (dat V c).after 0 t = xblkF V c t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t
    = out6 (xblkF V c t) (iblk V c 1 t) (iblk V c 2 t) (iblk V c 3 t) (iblk V c 4 t) (iblk V c 5 t) := by dsimp only [dat]

/-! ## What the body finds in each window's buffer -/

/-- The data window is fetched at every point: its buffer holds the block's rows inside the array on its leading rows
    and, past the array's end, contents `d` nothing names. -/
theorem before0 (c : Dev nD) (t : Fin cfg1.N) (d) :
    (dat V c).before 0 t d = win1_0.fill (grid1.coords t) d (iblk V c 0 t) :=
  ((dat V c).before_fetched 0 t (fetch1_0 t) d).trans
    (by unfold Dat.fetched Dat.blockOf iblk; rw [A_eq]; try rfl)

/-- The statistics windows are fetched at the first point only, never cut, and only read by the body: each one's
    buffer holds its (whole-array) block at every point. -/
theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg1.N) (d) : (dat V c).before 4 t d = iblk V c 4 t :=
  ((dat V c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg1.N) (d) : (dat V c).before 5 t d = iblk V c 5 t :=
  ((dat V c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-- The output window is written back at every point: at each point its buffer is fresh, at contents nothing names. -/
theorem before6 (c : Dev nD) (t : Fin cfg1.N) (d) : (dat V c).before 6 t d = d :=
  (dat V c).before_out_reset 6 rfl t
    (by by_cases h0 : t.val = 0
        · exact .inl h0
        · exact .inr ⟨h0, flush1_6 _⟩) d

/-! ## The output on the rows inside the array does not depend on what fills the data buffer past the array's end -/

/-- Two data buffers holding the same rows `g` inside the array and anything past its end give outputs that agree on
    the rows inside the array: the body is elementwise in the data block. (The data window and the output window cut
    their blocks alike: one index map.) -/
theorem out6_cut_fill (i : grid1.Coords) (d d' : S28800x128.Idx → Elt F .f32) (g : (win1_0.xblock i).Idx → Elt F .f32)
    (x1 x2 : Vec F S2x1x128 .f32) (x3 x4 x5 : Vec F S1x128 .f32) :
    win1_0.cut i (out6 (win1_0.fill i d g) x1 x2 x3 x4 x5) = win1_0.cut i (out6 (win1_0.fill i d' g) x1 x2 x3 x4 x5) := by
  funext j
  show out6 (win1_0.fill i d g) x1 x2 x3 x4 x5 (win1_0.xinj i j) = out6 (win1_0.fill i d' g) x1 x2 x3 x4 x5 (win1_0.xinj i j)
  rw [out6_apply, out6_apply, win1_0.fill_xinj, win1_0.fill_xinj]

/-! ## The body obligation, at a generic point -/

/-- What the body is called with at point `t` (the body obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns: the two windows whose last block overhangs the array (the data's and the output's) stated on
    the rows inside the array only. -/
def bodyPost (c : Dev nD) (t : Fin cfg1.N) : sProp 𝕄 :=
  iprop((dat V c).Φ t.succ ∗ (dat V c).owesAt () t.succ
    ∗ (∃ d, owns (c : Thread nD τ) (st1_0 t) fullShare
        (win1_0.fill (grid1.coords t) d (win1_0.cut (grid1.coords t) ((dat V c).after 0 t))))
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ (∃ d, owns (c : Thread nD τ) (st1_6 t) fullShare
        (win1_6.fill (grid1.coords t) d (win1_6.cut (grid1.coords t) ((dat V c).after 6 t)))))

/-- The body at any point: the inputs' memrefs hold their blocks (the data's filled out with some `d0` past the array's
    end), so `sound_kernel` applies; the data's buffer comes back as found and the output's at `out6` of what was found,
    which on the rows inside the array is the proof data's `after`; the invariant and the core's `owes` pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6,
    show win1_0.cut (grid1.coords t) (xblkF V c t) = iblk V c 0 t from win1_0.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (win1_0.fill (grid1.coords t) d0 (iblk V c 0 t))
    (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  have hfill : win1_6.fill (grid1.coords t) (out6 (win1_0.fill (grid1.coords t) d0 (iblk V c 0 t)) (iblk V c 1 t) (iblk V c 2 t) (iblk V c 3 t) (iblk V c 4 t) (iblk V c 5 t))
      (win1_6.cut (grid1.coords t) (out6 (win1_0.fill (grid1.coords t) (fun _ => Scalar.ofBits .f32 0#32) (iblk V c 0 t)) (iblk V c 1 t) (iblk V c 2 t) (iblk V c 3 t) (iblk V c 4 t) (iblk V c 5 t))) = (out6 (win1_0.fill (grid1.coords t) d0 (iblk V c 0 t)) (iblk V c 1 t) (iblk V c 2 t) (iblk V c 3 t) (iblk V c 4 t) (iblk V c 5 t)) :=
    win1_6.fill_congr_cut (grid1.coords t) (out6_cut_fill (grid1.coords t) d0 (fun _ => Scalar.ofBits .f32 0#32) (iblk V c 0 t) (iblk V c 1 t) (iblk V c 2 t) (iblk V c 3 t) (iblk V c 4 t) (iblk V c 5 t))
  iexists (out6 (win1_0.fill (grid1.coords t) d0 (iblk V c 0 t)) (iblk V c 1 t) (iblk V c 2 t) (iblk V c 3 t) (iblk V c 4 t) (iblk V c 5 t))
  unfold xblkF
  change _ ⊢ owns (c : Thread nD τ) (st1_6 t) fullShare (win1_6.fill (grid1.coords t) (out6 (win1_0.fill (grid1.coords t) d0 (iblk V c 0 t)) (iblk V c 1 t) (iblk V c 2 t) (iblk V c 3 t) (iblk V c 4 t) (iblk V c 5 t))
      (win1_6.cut (grid1.coords t) (out6 (win1_0.fill (grid1.coords t) (fun _ => Scalar.ofBits .f32 0#32) (iblk V c 0 t)) (iblk V c 1 t) (iblk V c 2 t) (iblk V c 3 t) (iblk V c 4 t) (iblk V c 5 t))))
  rw [hfill]
  try iexact H6

/-- The library's body obligation as the loop uses it (the two overhanging windows stated on the rows inside the array),
    at every point. -/
theorem body_obligation_loose (c : Dev nD) :
    BodyObligationLoose (dat (F := F) V c) (defs₀ (F := F)) Variants.none () Set.univ := fun t => by
  rw [bigSep_W1, bigSep_W1]
  exact sound_body V c t

end Cert.KernelIdeal.Apply

end
-- ==== Proof.Run.lean ====
/-
  The program's run, from the launch to the return.

  @main is three items: the statistics pass (a pipelined region), three reshapes of the running statistics to rows,
  and the normalisation pass (a second region).  The contents of every buffer outside the kernels' scopes are
  followed through the items as a fold from the launch memory: a region leaves each of its arrays at what its
  write-backs leave (the inputs as entered) and every other buffer as entered; a host stretch leaves what its
  operations compute.  Each region is entered from, and left at, the thread state "every such buffer at the
  boundary's contents, the generator register at some state, nothing owed".  The launch then gives: every weakly fair
  execution terminates without a fault; the result array ends at what the second region's write-backs leave of it;
  and the four argument arrays end as launched (the data array is read by both regions through input windows, the
  three statistics vectors are only reshaped).
-/
import proofs.«173824_g90340342104516_pilotgen1_308_12_alg».proof.Proof.StatsHalf
import proofs.«173824_g90340342104516_pilotgen1_308_12_alg».proof.Proof.ApplyHalf
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch (the statistics pass's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At the statistics pass's exit: its arrays at what the pipeline leaves, every other buffer as entered. -/
def W1 (c : Dev nD) : Valuation τ sig (Elt F) :=
  Pipeline.withArrays spec0 c (W0 m ρ c) fun w => (Stats.dat (V0 m ρ) c).arrAt w cfg0.N
theorem W1_arr (c : Dev nD) (w : Fin cfg0.W) :
    W1 m ρ c (Proc.devRef .tc (Pipeline.arrRef spec0 w)) = (Stats.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Stats.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three reshapes (the normalisation pass's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the normalisation pass's exit: its arrays at what the pipeline leaves, every other buffer as entered. -/
def W3 (c : Dev nD) : Valuation τ sig (Elt F) :=
  Pipeline.withArrays spec1 c (W2 m ρ c) fun w => (Apply.dat (V2 m ρ) c).arrAt w cfg1.N
theorem W3_arr (c : Dev nD) (w : Fin cfg1.W) :
    W3 m ρ c (Proc.devRef .tc (Pipeline.arrRef spec1 w)) = (Apply.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Apply.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched, and the result is the second region's output array -/

/-- The data array is the first window's array of both regions, an input window in each: each region leaves it as
    entered, and no reshape writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((Apply.dat (V2 m ρ) c).arrAt_in 0 rfl _).trans (Apply.A_eq (V2 m ρ) c 0))
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((Stats.dat (V0 m ρ) c).arrAt_in 0 rfl _).trans (Stats.A_eq (V0 m ρ) c 0))
    _ = m ((c : Thread nD τ).loc main_arg0) := rfl
/-- `main_arg1` is no window's array and no host operation's result: the fold walks back to the launch memory. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
/-- `main_arg2` is no window's array and no host operation's result: the fold walks back to the launch memory. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
/-- `main_arg3` is no window's array and no host operation's result: the fold walks back to the launch memory. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

/-- The result array at the end is what the normalisation pass's write-backs leave of its output window's array. -/
theorem W3_main_v4 (c : Dev nD) : W3 m ρ c (Proc.devRef .tc main_v4) = (Apply.dat (V2 m ρ) c).arrAt 6 cfg1.N :=
  W3_arr m ρ c 6

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Stats.dat (V0 m ρ) c
  | ⟨1, _⟩ => fun c => Apply.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as items of the run -/

set_option backward.isDefEq.respectTransparency.types false in
/-- Region 0 over the thread state: its arrays are split out of the unscoped buffers at entry and put back at the
    exit contents; the generator register passes through the body's invariant; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stats.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at the
    exit contents; the generator register passes through the body's invariant; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := Apply.body_obligation_loose (V2 m ρ) c
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN, at any `F`: from any memory with zero counters every weakly fair execution of @main on the TensorCores
    terminates, nothing faulting; every final state has the result array at what the normalisation pass leaves of it
    and the four argument arrays as launched. -/
theorem run : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Run

end
-- ==== Proof.StatsHalfW.lean ====
/-
  The statistics pass, one grid point at a time.

  The grid is two chunks of ten points.  At each point the body reads one block of fifty thousand rows and forms its
  column sums and column sums of squares; at the first point of a chunk it stores them in the two output buffers, at
  every other point it adds them to what the buffers hold.  The output block of a chunk is revisited by all ten of its
  points, so between points of one chunk the buffers keep their contents: the accumulators `acc1`, `acc2` (defined by
  recursion on the point) are what the two buffers hold after each point.  With these as the proof data's contents,
  the body's triple at a generic point — by cases on which of the two conditionals holds there — is the pipeline's body
  obligation.  Stated at any float instance and at any contents `V` of the buffers the region is entered with.
-/
import proofs.«173824_g90340342104516_pilotgen1_308_12_alg».proof.Proof.Gen.Kernel.Launch
import proofs.«173824_g90340342104516_pilotgen1_308_12_alg».proof.Proof.Gen.Kernel.Skeleton
import proofs.«173824_g90340342104516_pilotgen1_308_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

/-- The first conditional (second grid coordinate zero) holds exactly at the first point of each chunk of ten. -/
theorem hcond1 : ∀ t : Fin cfg0.N, k0_cond1 (grid0.coords t) = 1#1 ↔ t.val % 10 = 0 :=
  (by decide +kernel : ∀ t : Fin grid0.N, k0_cond1 (grid0.coords t) = 1#1 ↔ t.val % 10 = 0)

/-- The second conditional (second grid coordinate nonzero) holds exactly at the other points. -/
theorem hcond2 : ∀ t : Fin cfg0.N, k0_cond2 (grid0.coords t) = 1#1 ↔ t.val % 10 ≠ 0 :=
  (by decide +kernel : ∀ t : Fin grid0.N, k0_cond2 (grid0.coords t) = 1#1 ↔ t.val % 10 ≠ 0)

/-- One of the two conditionals holds at every point, so no point is idle for an output window. -/
theorem idle1 : ∀ t : Fin cfg0.N, cfg0.idle 1 (cfg0.grid.coords t) = false :=
  (by decide +kernel : ∀ t : Fin grid0.N, idle0 1 (grid0.coords t) = false)
theorem idle2 : ∀ t : Fin cfg0.N, cfg0.idle 2 (cfg0.grid.coords t) = false :=
  (by decide +kernel : ∀ t : Fin grid0.N, idle0 2 (grid0.coords t) = false)

/-! ## The body's accesses -/

/-- The whole input block. -/
abbrev rx : Rect S50000x128 := Rect.unit (s := S50000x128) ![0, 0] S50000x128.size inb_S50000x128_S50000x128_0_0
/-- The whole output block. -/
abbrev ro : Rect S1x1x128 := Rect.unit (s := S1x1x128) ![0, 0, 0] S1x1x128.size inb_S1x1x128_S1x1x128_0_0_0

theorem hz2 : (![0, 0] : Fin 2 → Nat) = fun _ => 0 := funext fun a => by fin_cases a <;> rfl
theorem hz3 : (![0, 0, 0] : Fin 3 → Nat) = fun _ => 0 := funext fun a => by fin_cases a <;> rfl

/-- One store of the whole output block covers it. -/
theorem cover_o (p0 : Vec F S1x1x128 .f32) (y : S1x1x128.Idx) :
    ∃ pc ∈ ([⟨ro, p0⟩] : List (View.Piece (Elt F) S1x1x128 .f32)), y ∈ pc.1.set :=
  ⟨_, List.mem_singleton_self _, View.mem_set_unit_zero (S := S1x1x128) hz3 inb_S1x1x128_S1x1x128_0_0_0 y⟩

/-! ## The body's triple, per case of its two conditionals -/

set_option maxHeartbeats 1000000 in
/-- At a point where the first conditional holds and the second fails, the body on whole staging memrefs — the
    input's at `x0`, the outputs' at anything — runs to the continuation holding the input's as it was and the
    outputs' at the block's column sums and column sums of squares. -/
theorem sound_kernel_first (c : Dev nD) (E : Set ℕ) (i : grid0.Coords)
    (arg2 : Memref sig .tc .vmem S50000x128 .f32) (harg2 : arg2.IsWhole)
    (arg3 : Memref sig .tc .vmem S1x1x128 .f32) (harg3 : arg3.IsWhole)
    (arg4 : Memref sig .tc .vmem S1x1x128 .f32) (harg4 : arg4.IsWhole)
    (h1 : k0_cond1 i = 1#1) (h2 : ¬k0_cond2 i = 1#1)
    (x0 : Vec F S50000x128 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (k0_pay3 x0)
            ∗ owns (c : Thread nD τ) arg4 fullShare (k0_pay4 x0)) -∗ K ⟨⟩))
      ⊢ wp frame (wpE (defs₀ (F := F)) Variants.none c none) E (cc0_vnorm_stats i arg2 harg2 arg3 harg3 arg4 harg4) K := by
  simp only [cc0_vnorm_stats_eq_skeleton]; unfold cc0_vnorm_stats_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover_o _)).trans ?_
    rw [View.canon_unit_zero (S := S1x1x128) hz3]
    exact congrArg k0_pay3 (View.ld_unit_zero (S := S50000x128) hz2 _ _)
  · iexists _; isplitr
    swap; · iexact H2
    ipureintro
    refine (View.read_writes_eq_canon _ _ _ (cover_o _)).trans ?_
    rw [View.canon_unit_zero (S := S1x1x128) hz3]
    exact congrArg k0_pay4 (View.ld_unit_zero (S := S50000x128) hz2 _ _)

set_option maxHeartbeats 1000000 in
/-- At a point where the first conditional fails and the second holds, the body on whole staging memrefs — the
    input's at `x0`, the outputs' at `p1`, `p2` — runs to the continuation holding the input's as it was and the
    outputs' at what they held plus the block's column sums and column sums of squares. -/
theorem sound_kernel_next (c : Dev nD) (E : Set ℕ) (i : grid0.Coords)
    (arg2 : Memref sig .tc .vmem S50000x128 .f32) (harg2 : arg2.IsWhole)
    (arg3 : Memref sig .tc .vmem S1x1x128 .f32) (harg3 : arg3.IsWhole)
    (arg4 : Memref sig .tc .vmem S1x1x128 .f32) (harg4 : arg4.IsWhole)
    (h1 : ¬k0_cond1 i = 1#1) (h2 : k0_cond2 i = 1#1)
    (x0 : Vec F S50000x128 .f32) (p1 p2 : Vec F S1x1x128 .f32) (K : PUnit → sProp 𝕄) :
    iprop(owns (c : Thread nD τ) arg2 fullShare x0 ∗ owns (c : Thread nD τ) arg3 fullShare p1 ∗ owns (c : Thread nD τ) arg4 fullShare p2
        ∗ (iprop(owns (c : Thread nD τ) arg2 fullShare x0 ∗ owns (c : Thread nD τ) arg3 fullShare (k0_pay5 x0 p1)
            ∗ owns (c : Thread nD τ) arg4 fullShare (k0_pay6 x0 p2)) -∗ K ⟨⟩))
      ⊢ wp frame (wpE (defs₀ (F := F)) Variants.none c none) E (cc0_vnorm_stats i arg2 harg2 arg3 harg3 arg4 harg4) K := by
  simp only [cc0_vnorm_stats_eq_skeleton]; unfold cc0_vnorm_stats_skel
  unfold owns
  iintro ⟨⟨%f0, %hf0, H0⟩, ⟨%f1, %hf1, H1⟩, ⟨%f2, %hf2, H2⟩, Hk⟩
  subst hf0; subst hf1; subst hf2
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover_o _)).trans ?_
    rw [View.canon_unit_zero (S := S1x1x128) hz3]
    exact congrArg₂ k0_pay5 (View.ld_unit_zero (S := S50000x128) hz2 _ _) (View.ld_unit_zero (S := S1x1x128) hz3 _ _)
  · iexists _; isplitr
    swap; · iexact H2
    ipureintro
    refine (View.read_writes_eq_canon _ _ _ (cover_o _)).trans ?_
    rw [View.canon_unit_zero (S := S1x1x128) hz3]
    exact congrArg₂ k0_pay6 (View.ld_unit_zero (S := S50000x128) hz2 _ _) (View.ld_unit_zero (S := S1x1x128) hz3 _ _)

/-! ## The accumulators -/

/-- No coordinates are idle for an output window: one of the two conditionals holds. -/
theorem hlive1 : ∀ i : grid0.Coords, cfg0.idle 1 i = false := by decide
theorem hlive2 : ∀ i : grid0.Coords, cfg0.idle 2 i = false := by decide

/-- What the first output's staging buffer holds after the body at position `n`: at the first point of a chunk of
    ten the block's column sums, at any other point those added to what the point before left. -/
def acc1 (c : Dev nD) : (n : ℕ) → n < cfg0.N → Vec F S1x1x128 .f32
  | 0, hn => k0_pay3 (iblk V c 0 ⟨0, hn⟩)
  | n + 1, hn =>
    if (n + 1) % 10 = 0 then k0_pay3 (iblk V c 0 ⟨n + 1, hn⟩)
    else k0_pay5 (iblk V c 0 ⟨n + 1, hn⟩) (acc1 c n (Nat.lt_of_succ_lt hn))

/-- The same for the second output: the column sums of squares. -/
def acc2 (c : Dev nD) : (n : ℕ) → n < cfg0.N → Vec F S1x1x128 .f32
  | 0, hn => k0_pay4 (iblk V c 0 ⟨0, hn⟩)
  | n + 1, hn =>
    if (n + 1) % 10 = 0 then k0_pay4 (iblk V c 0 ⟨n + 1, hn⟩)
    else k0_pay6 (iblk V c 0 ⟨n + 1, hn⟩) (acc2 c n (Nat.lt_of_succ_lt hn))

theorem acc1_first (c : Dev nD) (t : Fin cfg0.N) (h0 : t.val % 10 = 0) :
    acc1 V c t.val t.isLt = k0_pay3 (iblk V c 0 t) := by
  obtain ⟨n, hn⟩ := t
  cases n with
  | zero => exact rfl
  | succ n => exact (if_pos h0).trans rfl

theorem acc1_next (c : Dev nD) (t : Fin cfg0.N) (h0 : ¬t.val % 10 = 0) :
    acc1 V c t.val t.isLt = k0_pay5 (iblk V c 0 t) (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

theorem acc2_first (c : Dev nD) (t : Fin cfg0.N) (h0 : t.val % 10 = 0) :
    acc2 V c t.val t.isLt = k0_pay4 (iblk V c 0 t) := by
  obtain ⟨n, hn⟩ := t
  cases n with
  | zero => exact rfl
  | succ n => exact (if_pos h0).trans rfl

theorem acc2_next (c : Dev nD) (t : Fin cfg0.N) (h0 : ¬t.val % 10 = 0) :
    acc2 V c t.val t.isLt = k0_pay6 (iblk V c 0 t) (acc2 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of the first pipeline on core `c`: the arrays as the region finds them; after the body at point
    `t` the input's buffer at its block and the outputs' at the accumulators; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => acc1 V c t.val t.isLt
    | ⟨2, _⟩ => acc2 V c t.val t.isLt
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = iblk V c 0 t := by dsimp only [dat]
theorem after1 (c : Dev nD) (t : Fin cfg0.N) : (dat V c).after 1 t = acc1 V c t.val t.isLt := by dsimp only [dat]
theorem after2 (c : Dev nD) (t : Fin cfg0.N) : (dat V c).after 2 t = acc2 V c t.val t.isLt := by dsimp only [dat]

/-- The input's current staging buffer holds its block at every point. -/
theorem before0 (c : Dev nD) (t : Fin cfg0.N) (d) : (dat V c).before 0 t d = iblk V c 0 t :=
  before0_of V (dat V c) (A_eq V c 0) (after0 V c) t d

/-- At a point that is not the first of its chunk an output's current staging buffer holds what the body left at
    the point before: the point is not the first, the buffer was not written back between (only the last point of
    a chunk writes back), the window is live and uncut. -/
theorem before1_next (c : Dev nD) (t : Fin cfg0.N) (h0 : ¬t.val % 10 = 0) (d) :
    (dat V c).before 1 t d = acc1 V c (t.val - 1) (Nat.lt_of_le_of_lt (Nat.sub_le _ _) t.isLt) := by
  have hN : t.val < 20 := lt_of_lt_of_eq t.isLt (show cfg0.N = 20 from N_0)
  rw [Dat.before_out_kept _ 1 rfl t (by omega) (Bool.eq_false_iff.mpr fun h => by have := (flush0_1 _).mp h; dsimp only at this; omega)
    hlive1 (fun _ _ => rfl)]
  dsimp only [dat]

theorem before2_next (c : Dev nD) (t : Fin cfg0.N) (h0 : ¬t.val % 10 = 0) (d) :
    (dat V c).before 2 t d = acc2 V c (t.val - 1) (Nat.lt_of_le_of_lt (Nat.sub_le _ _) t.isLt) := by
  have hN : t.val < 20 := lt_of_lt_of_eq t.isLt (show cfg0.N = 20 from N_0)
  rw [Dat.before_out_kept _ 2 rfl t (by omega) (Bool.eq_false_iff.mpr fun h => by have := (flush0_2 _).mp h; dsimp only at this; omega)
    hlive2 (fun _ _ => rfl)]
  dsimp only [dat]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

set_option maxHeartbeats 800000 in
/-- The body at any point: the input's memref holds its block; the point is the first of its chunk or not, and in
    the second case the outputs' memrefs hold what the point before left; so the matching triple applies; the
    invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0]
  rw [show (dat V c).Φ t.succ = (dat V c).Φ t.castSucc from rfl,
    show (dat V c).owesAt () t.succ = (dat V c).owesAt () t.castSucc from rfl,
    after0, after1, after2]
  by_cases h0 : t.val % 10 = 0
  · rw [acc1_first V c t h0, acc2_first V c t h0]
    iintro ⟨HΦ, Ho, ⟨%d0, H0⟩, ⟨%d1, H1⟩, ⟨%d2, H2⟩⟩
    iapply (sound_kernel_first c Set.univ (grid0.coords t) _ _ _ _ _ _ ((hcond1 t).mpr h0) (fun h => (hcond2 t).mp h h0) (iblk V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc1_next V c t h0, acc2_next V c t h0]
    simp only [before1_next V c t h0, before2_next V c t h0]
    iintro ⟨HΦ, Ho, ⟨%d0, H0⟩, ⟨%d1, H1⟩, ⟨%d2, H2⟩⟩
    iapply (sound_kernel_next c Set.univ (grid0.coords t) _ _ _ _ _ _ (fun h => h0 ((hcond1 t).mp h)) ((hcond2 t).mpr h0) (iblk V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point: no point is idle for an output window. -/
theorem body_obligation (c : Dev nD) : BodyObligation (dat (F := F) V c) (defs₀ (F := F)) Variants.none () Set.univ := fun t => by
  -- the two output windows' idleness is one function of the coordinates: one rewrite reaches both
  rw [bigSep_W0, bigSep_W0, idle1 t]
  exact sound_body V c t

end Cert.Kernel.Stats

end
-- ==== Proof.ApplyHalfW.lean ====
/-
  The normalisation pass, one grid point at a time.

  Thirty-five points, one block of 28800 rows each, the last overhanging the array's end.  The body loads the data
  block, the two partial-sum arrays and the three running statistics (whole, the same at every point), computes the
  new mean and the new variance per column, and stores `(x − new_mean) · rsqrt (variance + ε)` over the whole output
  buffer.  The proof data name each buffer's contents after the body: the data block filled out past the array's end,
  the five statistics arrays, and the store's value; the rows of the output inside the array do not depend on what
  fills the data buffer past the array's end.  The body's triple at a generic point is the pipeline's body obligation
  in its loose form (two windows are cut at the last point).  Stated at any float instance and at any contents `V` of
  the buffers the region is entered with.
-/
import proofs.«173824_g90340342104516_pilotgen1_308_12_alg».proof.Proof.Gen.Kernel.Launch
import proofs.«173824_g90340342104516_pilotgen1_308_12_alg».proof.Proof.Gen.Kernel.Skeleton
import proofs.«173824_g90340342104516_pilotgen1_308_12_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.Kernel.Apply

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the normalisation pass, at the region-entry contents `V` -/

/-- Window `w`'s block at point `t` (its part inside the array), read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store are of a whole buffer -/

abbrev rX : Rect S28800x128 := Rect.unit (s := S28800x128) ![0, 0] S28800x128.size inb_S28800x128_S28800x128_0_0
abbrev rP : Rect S2x1x128 := Rect.unit (s := S2x1x128) ![0, 0, 0] S2x1x128.size inb_S2x1x128_S2x1x128_0_0_0
abbrev rS : Rect S1x128 := Rect.unit (s := S1x128) ![0, 0] S1x128.size inb_S1x128_S1x128_0_0

/-- The new mean per column, from the partial sums `x1`, the running count `x3` and the running mean `x4`. -/
def newMean (x1 : Vec F S2x1x128 .f32) (x3 x4 : Vec F S1x128 .f32) : FVec F S1x128 .f32 :=
  k1_pay7 (View.ld x1 rP) (View.ld x3 rS) (View.ld x4 rS)

/-- The new variance per column (the new centred second moment over `max (new count - 1) 1`), from the partial sums
    `x1`, the partial sums of squares `x2`, and the running count, mean and second moment `x3`, `x4`, `x5`. -/
def newVar (x1 x2 : Vec F S2x1x128 .f32) (x3 x4 x5 : Vec F S1x128 .f32) : FVec F S1x128 .f32 :=
  k1_pay8 (View.ld x1 rP) (View.ld x2 rP) (View.ld x3 rS) (View.ld x4 rS) (View.ld x5 rS)

/-- The output window's staging buffer after the body, from the six input buffers: its one store, of the whole buffer. -/
def out6 (x0 : Vec F S28800x128 .f32) (x1 x2 : Vec F S2x1x128 .f32) (x3 x4 x5 : Vec F S1x128 .f32) : Vec F S28800x128 .f32 :=
  View.canon [⟨rX, k1_pay1 (newMean x1 x3 x4) (newVar x1 x2 x3 x4 x5) (Scalar.ofBits .f32 0x3727C5AC#32) (View.ld x0 rX)⟩]

/-- The store covers the buffer. -/
theorem cover6 (p0 : Vec F S28800x128 .f32) (y : S28800x128.Idx) :
    ∃ pc ∈ ([⟨rX, p0⟩] : List (View.Piece (Elt F) S28800x128 .f32)), y ∈ pc.1.set :=
  View.cover_of_tiled [⟨rX, p0⟩] S28800x128.size (by rfl) y

set_option maxHeartbeats 1000000 in
/-- The body on whole staging memrefs, the six inputs' at read contents `x0` … `x5` and the output's at anything
    (the body loads it once and uses nothing of it), runs to the continuation holding the inputs' as they were and the
    output's at `out6` of the inputs'. -/
theorem sound_kernel (c : Dev nD) (E : Set ℕ) (i : grid1.Coords)
    (arg1 : Memref sig .tc .vmem S28800x128 .f32) (harg1 : arg1.IsWhole)
    (arg2 : Memref sig .tc .vmem S2x1x128 .f32) (harg2 : arg2.IsWhole)
    (arg3 : Memref sig .tc .vmem S2x1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S28800x128 .f32) (harg7 : arg7.IsWhole)
    (x0 : Vec F S28800x128 .f32) (x1 x2 : Vec F S2x1x128 .f32) (x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E
          (cc1_vnorm_apply i arg1 harg1 arg2 harg2 arg3 harg3 arg4 harg4 arg5 harg5 arg6 harg6 arg7 harg7) K := by
  simp only [cc1_vnorm_apply_eq_skeleton, k1_part1_eq_skeleton]; unfold cc1_vnorm_apply_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H7
  ipureintro
  exact View.read_writes_eq_canon _ _ _ (cover6 _)

/-! ## The store's closed form: elementwise in the data block -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The one store covers the buffer and every load is of a whole buffer: the output buffer after the body is the
    store's payload of the inputs' contents. -/
theorem out6_eq (x0 : Vec F S28800x128 .f32) (x1 x2 : Vec F S2x1x128 .f32) (x3 x4 x5 : Vec F S1x128 .f32) :
    out6 x0 x1 x2 x3 x4 x5
      = k1_pay1 (newMean x1 x3 x4) (newVar x1 x2 x3 x4 x5) (Scalar.ofBits .f32 0x3727C5AC#32) x0 := by
  unfold out6
  rw [View.canon_unit_zero zeros2, View.ld_unit_zero zeros2]

/-- At each entry the output is `(x - new mean) * rsqrt (new variance + eps)` of the data block's entry there and of
    the column's statistics: of the data block it reads that entry and no other. -/
theorem out6_apply (x0 : Vec F S28800x128 .f32) (x1 x2 : Vec F S2x1x128 .f32) (x3 x4 x5 : Vec F S1x128 .f32) (y : S28800x128.Idx) :
    out6 x0 x1 x2 x3 x4 x5 y
      = FloatOps.mulf (FloatOps.subf (x0 y) (broadcastTo S28800x128 (newMean x1 x3 x4) broadcasts_S1x128_S28800x128 y))
          (broadcastTo S28800x128 (rsqrt (addf (newVar x1 x2 x3 x4 x5) (broadcast S1x128 (Scalar.ofBits .f32 0x3727C5AC#32))))
            broadcasts_S1x128_S28800x128 y) := by
  rw [out6_eq]; rfl

/-! ## The pipeline's proof data -/

/-- The data window's staging buffer as the proof data name it: the block's rows inside the array, filled out past the
    array's end (the last block overhangs it) with the zero word, which nothing reads. -/
def xblkF (c : Dev nD) (t : Fin cfg1.N) : S28800x128.Idx → Elt F .f32 :=
  win1_0.fill (grid1.coords t) (fun _ => Scalar.ofBits .f32 0#32) (iblk V c 0 t)

/-- The proof data of the pipeline on core `c`: the arrays as the region finds them; after the body at point `t` the
    data window's buffer at its block (filled out: `xblkF`), the five statistics windows' at their whole arrays, and
    the output's at `out6` of those; the invariant the scoped rest and the generator register, untouched; nothing owed;
    full shares. -/
def dat (c : Dev nD) : Dat τ (Elt F) Unit ℕ (UR sig nD τ) ℕ cfg1 c where
  A w := V c (Pipeline.arrRef spec1 w)
  after w t := match w with
    | ⟨0, _⟩ => xblkF V c t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (xblkF V c t) (iblk V c 1 t) (iblk V c 2 t) (iblk V c 3 t) (iblk V c 4 t) (iblk V c 5 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after0 (c : Dev nD) (t : Fin cfg1.N) : (dat V c).after 0 t = xblkF V c t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t
    = out6 (xblkF V c t) (iblk V c 1 t) (iblk V c 2 t) (iblk V c 3 t) (iblk V c 4 t) (iblk V c 5 t) := by dsimp only [dat]

/-! ## What the body finds in each window's buffer -/

/-- The data window is fetched at every point: its buffer holds the block's rows inside the array on its leading rows
    and, past the array's end, contents `d` nothing names. -/
theorem before0 (c : Dev nD) (t : Fin cfg1.N) (d) :
    (dat V c).before 0 t d = win1_0.fill (grid1.coords t) d (iblk V c 0 t) :=
  ((dat V c).before_fetched 0 t (fetch1_0 t) d).trans
    (by unfold Dat.fetched Dat.blockOf iblk; rw [A_eq]; try rfl)

/-- The statistics windows are fetched at the first point only, never cut, and only read by the body: each one's
    buffer holds its (whole-array) block at every point. -/
theorem before1 (c : Dev nD) (t : Fin cfg1.N) (d) : (dat V c).before 1 t d = iblk V c 1 t :=
  ((dat V c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg1.N) (d) : (dat V c).before 4 t d = iblk V c 4 t :=
  ((dat V c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg1.N) (d) : (dat V c).before 5 t d = iblk V c 5 t :=
  ((dat V c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-- The output window is written back at every point: at each point its buffer is fresh, at contents nothing names. -/
theorem before6 (c : Dev nD) (t : Fin cfg1.N) (d) : (dat V c).before 6 t d = d :=
  (dat V c).before_out_reset 6 rfl t
    (by by_cases h0 : t.val = 0
        · exact .inl h0
        · exact .inr ⟨h0, flush1_6 _⟩) d

/-! ## The output on the rows inside the array does not depend on what fills the data buffer past the array's end -/

/-- Two data buffers holding the same rows `g` inside the array and anything past its end give outputs that agree on
    the rows inside the array: the body is elementwise in the data block. (The data window and the output window cut
    their blocks alike: one index map.) -/
theorem out6_cut_fill (i : grid1.Coords) (d d' : S28800x128.Idx → Elt F .f32) (g : (win1_0.xblock i).Idx → Elt F .f32)
    (x1 x2 : Vec F S2x1x128 .f32) (x3 x4 x5 : Vec F S1x128 .f32) :
    win1_0.cut i (out6 (win1_0.fill i d g) x1 x2 x3 x4 x5) = win1_0.cut i (out6 (win1_0.fill i d' g) x1 x2 x3 x4 x5) := by
  funext j
  show out6 (win1_0.fill i d g) x1 x2 x3 x4 x5 (win1_0.xinj i j) = out6 (win1_0.fill i d' g) x1 x2 x3 x4 x5 (win1_0.xinj i j)
  rw [out6_apply, out6_apply, win1_0.fill_xinj, win1_0.fill_xinj]

/-! ## The body obligation, at a generic point -/

/-- What the body is called with at point `t` (the body obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns: the two windows whose last block overhangs the array (the data's and the output's) stated on
    the rows inside the array only. -/
def bodyPost (c : Dev nD) (t : Fin cfg1.N) : sProp 𝕄 :=
  iprop((dat V c).Φ t.succ ∗ (dat V c).owesAt () t.succ
    ∗ (∃ d, owns (c : Thread nD τ) (st1_0 t) fullShare
        (win1_0.fill (grid1.coords t) d (win1_0.cut (grid1.coords t) ((dat V c).after 0 t))))
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ (∃ d, owns (c : Thread nD τ) (st1_6 t) fullShare
        (win1_6.fill (grid1.coords t) d (win1_6.cut (grid1.coords t) ((dat V c).after 6 t)))))

/-- The body at any point: the inputs' memrefs hold their blocks (the data's filled out with some `d0` past the array's
    end), so `sound_kernel` applies; the data's buffer comes back as found and the output's at `out6` of what was found,
    which on the rows inside the array is the proof data's `after`; the invariant and the core's `owes` pass through. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6,
    show win1_0.cut (grid1.coords t) (xblkF V c t) = iblk V c 0 t from win1_0.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (win1_0.fill (grid1.coords t) d0 (iblk V c 0 t))
    (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  have hfill : win1_6.fill (grid1.coords t) (out6 (win1_0.fill (grid1.coords t) d0 (iblk V c 0 t)) (iblk V c 1 t) (iblk V c 2 t) (iblk V c 3 t) (iblk V c 4 t) (iblk V c 5 t))
      (win1_6.cut (grid1.coords t) (out6 (win1_0.fill (grid1.coords t) (fun _ => Scalar.ofBits .f32 0#32) (iblk V c 0 t)) (iblk V c 1 t) (iblk V c 2 t) (iblk V c 3 t) (iblk V c 4 t) (iblk V c 5 t))) = (out6 (win1_0.fill (grid1.coords t) d0 (iblk V c 0 t)) (iblk V c 1 t) (iblk V c 2 t) (iblk V c 3 t) (iblk V c 4 t) (iblk V c 5 t)) :=
    win1_6.fill_congr_cut (grid1.coords t) (out6_cut_fill (grid1.coords t) d0 (fun _ => Scalar.ofBits .f32 0#32) (iblk V c 0 t) (iblk V c 1 t) (iblk V c 2 t) (iblk V c 3 t) (iblk V c 4 t) (iblk V c 5 t))
  iexists (out6 (win1_0.fill (grid1.coords t) d0 (iblk V c 0 t)) (iblk V c 1 t) (iblk V c 2 t) (iblk V c 3 t) (iblk V c 4 t) (iblk V c 5 t))
  unfold xblkF
  change _ ⊢ owns (c : Thread nD τ) (st1_6 t) fullShare (win1_6.fill (grid1.coords t) (out6 (win1_0.fill (grid1.coords t) d0 (iblk V c 0 t)) (iblk V c 1 t) (iblk V c 2 t) (iblk V c 3 t) (iblk V c 4 t) (iblk V c 5 t))
      (win1_6.cut (grid1.coords t) (out6 (win1_0.fill (grid1.coords t) (fun _ => Scalar.ofBits .f32 0#32) (iblk V c 0 t)) (iblk V c 1 t) (iblk V c 2 t) (iblk V c 3 t) (iblk V c 4 t) (iblk V c 5 t))))
  rw [hfill]
  try iexact H6

/-- The library's body obligation as the loop uses it (the two overhanging windows stated on the rows inside the array),
    at every point. -/
theorem body_obligation_loose (c : Dev nD) :
    BodyObligationLoose (dat (F := F) V c) (defs₀ (F := F)) Variants.none () Set.univ := fun t => by
  rw [bigSep_W1, bigSep_W1]
  exact sound_body V c t

end Cert.Kernel.Apply

end
-- ==== Proof.RunW.lean ====
/-
  The program's run, from the launch to the return.

  @main is three items: the statistics pass (a pipelined region), three reshapes of the running statistics to rows,
  and the normalisation pass (a second region).  The contents of every buffer outside the kernels' scopes are
  followed through the items as a fold from the launch memory: a region leaves each of its arrays at what its
  write-backs leave (the inputs as entered) and every other buffer as entered; a host stretch leaves what its
  operations compute.  Each region is entered from, and left at, the thread state "every such buffer at the
  boundary's contents, the generator register at some state, nothing owed".  The launch then gives: every weakly fair
  execution terminates without a fault; the result array ends at what the second region's write-backs leave of it;
  and the four argument arrays end as launched (the data array is read by both regions through input windows, the
  three statistics vectors are only reshaped).
-/
import proofs.«173824_g90340342104516_pilotgen1_308_12_alg».proof.Proof.StatsHalfW
import proofs.«173824_g90340342104516_pilotgen1_308_12_alg».proof.Proof.ApplyHalfW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items -/

/-- Core `c`'s buffers at launch (the statistics pass's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At the statistics pass's exit: its arrays at what the pipeline leaves, every other buffer as entered. -/
def W1 (c : Dev nD) : Valuation τ sig (Elt F) :=
  Pipeline.withArrays spec0 c (W0 m ρ c) fun w => (Stats.dat (V0 m ρ) c).arrAt w cfg0.N
theorem W1_arr (c : Dev nD) (w : Fin cfg0.W) :
    W1 m ρ c (Proc.devRef .tc (Pipeline.arrRef spec0 w)) = (Stats.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Stats.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three reshapes (the normalisation pass's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the normalisation pass's exit: its arrays at what the pipeline leaves, every other buffer as entered. -/
def W3 (c : Dev nD) : Valuation τ sig (Elt F) :=
  Pipeline.withArrays spec1 c (W2 m ρ c) fun w => (Apply.dat (V2 m ρ) c).arrAt w cfg1.N
theorem W3_arr (c : Dev nD) (w : Fin cfg1.W) :
    W3 m ρ c (Proc.devRef .tc (Pipeline.arrRef spec1 w)) = (Apply.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Apply.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched, and the result is the second region's output array -/

/-- The data array is the first window's array of both regions, an input window in each: each region leaves it as
    entered, and no reshape writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((Apply.dat (V2 m ρ) c).arrAt_in 0 rfl _).trans (Apply.A_eq (V2 m ρ) c 0))
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((Stats.dat (V0 m ρ) c).arrAt_in 0 rfl _).trans (Stats.A_eq (V0 m ρ) c 0))
    _ = m ((c : Thread nD τ).loc main_arg0) := rfl
/-- `main_arg1` is no window's array and no host operation's result: the fold walks back to the launch memory. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
/-- `main_arg2` is no window's array and no host operation's result: the fold walks back to the launch memory. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl
/-- `main_arg3` is no window's array and no host operation's result: the fold walks back to the launch memory. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

/-- The result array at the end is what the normalisation pass's write-backs leave of its output window's array. -/
theorem W3_main_v4 (c : Dev nD) : W3 m ρ c (Proc.devRef .tc main_v4) = (Apply.dat (V2 m ρ) c).arrAt 6 cfg1.N :=
  W3_arr m ρ c 6

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Stats.dat (V0 m ρ) c
  | ⟨1, _⟩ => fun c => Apply.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- A host stretch as an item of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as items of the run -/

set_option backward.isDefEq.respectTransparency.types false in
/-- Region 0 over the thread state: its arrays are split out of the unscoped buffers at entry and put back at the
    exit contents; the generator register passes through the body's invariant; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stats.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at the
    exit contents; the generator register passes through the body's invariant; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := Apply.body_obligation_loose (V2 m ρ) c
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN, at any `F`: from any memory with zero counters every weakly fair execution of @main on the TensorCores
    terminates, nothing faulting; every final state has the result array at what the normalisation pass leaves of it
    and the four argument arrays as launched. -/
theorem run : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Kernel.Run

end
-- ==== Proof.LibFiniteEntries.lean ====
/-
  "Every entry is finite", read back from its printed test.

  A precondition `jnp.all(|a| < +∞)` prints, for an argument `a` of any shape, as the comparison of `|a|` with the
  word of `+∞` broadcast from a scalar to the argument's shape, reduced by `and` over all axes from `1`; several such
  tests are joined by `and` on one-bit scalars.  On the extended reals `|x|` is `max x (−x)`, the word `0x7F800000` is
  `⊤`, and an extended real whose absolute value is below `⊤` is a real number.  So: a conjunction that is `1` has both
  conjuncts `1`, and a test that is `1` gives a real number at every entry of its argument.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.FiniteEntries

open Idealize.ShloMosaic Idealize.ShloMosaic.ValueIdx

/-- The rank-0 shape has one index. -/
instance : Subsingleton (⟨0, ![]⟩ : Shape).Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit scalars that is `1` has both conjuncts `1`. -/
theorem and_split {x y : IVec ⟨0, ![]⟩ 1} (h : andi x y ix0 = 1#1) : x ix0 = 1#1 ∧ y ix0 = 1#1 :=
  IntOp.andi_eq_one.1 h

/-- One argument's test: if "all `|a| < +∞`" came out `1`, every entry of `a` is real. -/
theorem entries_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1)
    (i : s.Idx) : ∃ r : ℝ, a i = (r : EReal) := by
  have h := Host.reduce_andi_all _ _ hr hu ix0 e i
  have h' : Ideal.cmp .olt (max (a i) (-(a i)))
      (broadcastInDim s ![] hb (constant (F := Ideal) ⟨0, ![]⟩ .f32 0x7F800000#32) i) = 1#1 := h
  rw [broadcastInDim_apply ![] hb _ i ix0 (fun ax => ax.elim0)] at h'
  have h'' : Ideal.cmp .olt (max (a i) (-(a i))) (Ideal.ofBits .f32 0x7F800000#32) = 1#1 := h'
  rw [ofBits_inf] at h''
  refine real_of_abs_lt_top (a i) ?_
  by_contra hn
  have : Ideal.cmp .olt (max (a i) (-(a i))) ⊤ = 0#1 := by
    unfold Ideal.cmp
    simp [hn]
  rw [this] at h''
  exact absurd h'' (by decide)

end Idealize.ShloMosaic.FiniteEntries

end
-- ==== Proof.LibNonnegEntries.lean ====
/-
  "Every entry is at least zero", read back from its printed test.

  A precondition `jnp.all(a >= 0)` prints, for an argument `a` of any shape, as the comparison (greater-or-equal) of
  `a` with the word of zero broadcast from a scalar to the argument's shape, reduced by `and` over all axes from `1`.
  On the extended reals the word `0x00000000` is `0` and the comparison is the order's, so a test that came out `1`
  gives `0 ≤ a i` at every entry.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.NonnegEntries

open Idealize.ShloMosaic Idealize.ShloMosaic.ValueIdx

/-- One argument's test: if "all `a ≥ 0`" came out `1`, every entry of `a` is at least zero. -/
theorem entries_nonneg {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .oge a (broadcastInDim s ![] hb (constant (F := Ideal) ⟨0, ![]⟩ .f32 0x00000000#32)))
        (constantI ⟨0, ![]⟩ 1 1#1) hr hu ix0 = 1#1)
    (i : s.Idx) : (0 : EReal) ≤ a i := by
  have h := Host.reduce_andi_all _ _ hr hu ix0 e i
  have h' : Ideal.cmp .oge (a i)
      (broadcastInDim s ![] hb (constant (F := Ideal) ⟨0, ![]⟩ .f32 0x00000000#32) i) = 1#1 := h
  rw [broadcastInDim_apply ![] hb _ i ix0 (fun ax => ax.elim0)] at h'
  have h'' : Ideal.cmp .oge (a i) (Ideal.ofBits .f32 0x00000000#32) = 1#1 := h'
  rw [Ideal.ofBits_zero_f32] at h''
  by_contra hn
  have : Ideal.cmp .oge (a i) 0 = 0#1 := by
    unfold Ideal.cmp
    simp [hn]
  rw [this] at h''
  exact absurd h'' (by decide)

end Idealize.ShloMosaic.NonnegEntries

end
-- ==== Proof.PreRead.lean ====
/-
  The precondition, read back: every entry of the four arguments is a real number, and every entry of the running
  count and of the running second moment is at least zero.

  The printed test is the conjunction, on one-bit scalars, of six "all entries" tests: `|a| < +∞` for each of the four
  arguments, then `count ≥ 0` and `m2 ≥ 0`.  A conjunction that is `1` has both conjuncts `1`; each test that is `1`
  gives its fact at every entry.
-/
import proofs.«173824_g90340342104516_pilotgen1_308_12_alg».proof.Pre_finite_inputs
import proofs.«173824_g90340342104516_pilotgen1_308_12_alg».proof.Proof.LibFiniteEntries
import proofs.«173824_g90340342104516_pilotgen1_308_12_alg».proof.Proof.LibNonnegEntries

set_option maxRecDepth 16384

noncomputable section

namespace Cert.Pre_finite_inputs.PreRead

open Idealize.ShloMosaic Idealize.ShloMosaic.ValueIdx Idealize.ShloMosaic.FiniteEntries Idealize.ShloMosaic.NonnegEntries
open Cert.Pre_finite_inputs Cert.Pre_finite_inputs.Facts

variable [Facts]

/-- If the precondition's test of the four arguments is all ones: every entry of each is real, and the entries of
    the second and the fourth (the running count, the running second moment) are at least zero. -/
theorem pre_read (a0 : FVec Ideal S1000000x128 .f32) (a1 a2 a3 : FVec Ideal S128 .f32)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, (0 : EReal) ≤ a1 i) ∧ (∀ i, (0 : EReal) ≤ a3 i) := by
  have h0 := congrFun h ix0
  dsimp only [fn, fn_part1] at h0
  obtain ⟨h22, h25⟩ := and_split h0
  obtain ⟨h18, h21⟩ := and_split h22
  obtain ⟨h13, h17⟩ := and_split h18
  obtain ⟨h8, h12⟩ := and_split h13
  obtain ⟨h3, h7⟩ := and_split h8
  exact ⟨entries_real a0 bcast_S_S1000000x128 reducesTo_S1000000x128_S_d0_1 h_S_ h3,
    entries_real a1 bcast_S_S128 reducesTo_S128_S_d0 h_S_ h7,
    entries_real a2 bcast_S_S128 reducesTo_S128_S_d0 h_S_ h12,
    entries_real a3 bcast_S_S128 reducesTo_S128_S_d0 h_S_ h17,
    entries_nonneg a1 bcast_S_S128 reducesTo_S128_S_d0 h_S_ h21,
    entries_nonneg a3 bcast_S_S128 reducesTo_S128_S_d0 h_S_ h25⟩

end Cert.Pre_finite_inputs.PreRead

end
-- ==== Proof.StatsValue.lean ====
/-
  The statistics pass's accumulators as sums.

  An accumulating step's payload is what the buffer held plus the block's column sums; at the extended reals a block's
  column sum at lane `d` is the sum over its fifty thousand rows of column `d`, and block `t` of the data array is its
  rows from `50000 · t` on.  So after the last point of chunk `i` the first accumulator at lane `d` is the sum over the
  chunk's ten blocks and their rows of the data array's column `d`, and the second the same sum of squares.
-/
import proofs.«173824_g90340342104516_pilotgen1_308_12_alg».proof.Proof.StatsHalf
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.StatsValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The payloads: an accumulating step adds the block's column sums to what the buffer held -/

section Generic
variable {F : FTy → Type} [FloatOps F]

/-- The accumulating store's payload is what the buffer held plus the resetting store's payload: the cast to the
    inner shape and back cancels, and a shape cast passes through an elementwise sum. -/
theorem pay5_eq (x : Vec F S50000x128 .f32) (p : Vec F S1x1x128 .f32) : k0_pay5 x p = addf p (k0_pay3 x) := by
  unfold k0_pay5 k0_pay3
  show shapeCast S1x1x128 (addf (shapeCast S1x128 p shapeCasts_S1x1x128_S1x128) (k0_pay1 x)) shapeCasts_S1x128_S1x1x128
    = addf p (shapeCast S1x1x128 (k0_pay1 x) shapeCasts_S1x128_S1x1x128)
  have hd : ∀ a b : FVec F S1x128 .f32, shapeCast S1x1x128 (addf a b) shapeCasts_S1x128_S1x1x128
      = addf (shapeCast S1x1x128 a shapeCasts_S1x128_S1x1x128) (shapeCast S1x1x128 b shapeCasts_S1x128_S1x1x128) := fun _ _ => rfl
  rw [hd, shapeCast_shapeCast]

theorem pay6_eq (x : Vec F S50000x128 .f32) (p : Vec F S1x1x128 .f32) : k0_pay6 x p = addf p (k0_pay4 x) := by
  unfold k0_pay6 k0_pay4
  show shapeCast S1x1x128 (addf (shapeCast S1x128 p shapeCasts_S1x1x128_S1x128) (k0_pay2 x)) shapeCasts_S1x128_S1x1x128
    = addf p (shapeCast S1x1x128 (k0_pay2 x) shapeCasts_S1x128_S1x1x128)
  have hd : ∀ a b : FVec F S1x128 .f32, shapeCast S1x1x128 (addf a b) shapeCasts_S1x128_S1x1x128
      = addf (shapeCast S1x1x128 a shapeCasts_S1x128_S1x1x128) (shapeCast S1x1x128 b shapeCasts_S1x128_S1x1x128) := fun _ _ => rfl
  rw [hd, shapeCast_shapeCast]

end Generic

/-! ## The payloads at the ideal values: column sums -/

/-- The index the reduction over the rows inserts row `r` at, by coordinates. -/
theorem lift_eq (j : S128.Idx) (d : Fin 128) (hd : j 0 = d) (r : Fin 50000) :
    reduces_S50000x128_S128.lift j r = ix2 r d := by
  subst hd
  funext a
  match a with
  | ⟨0, _⟩ => rfl
  | ⟨1, _⟩ => rfl

/-- The sum over the rows of a block, read at lane `d`: the sum of the block's column `d`. -/
theorem reduce_apply (y : FVec Ideal S50000x128 .f32) (j : S128.Idx) (d : Fin 128) (hd : j 0 = d) :
    multiReduction (F := Ideal) .add [0] S128 y 0x00000000#32 reduces_S50000x128_S128 (.inl rfl) rfl j = ∑ r : Fin 50000, y (ix2 r d) := by
  refine (Ideal.multiReduction_add_single (a := 0) y 0x00000000#32 reduces_S50000x128_S128 (.inl rfl) rfl j).trans ?_
  exact Finset.sum_congr rfl fun r _ => congrArg y (lift_eq j d hd r)

theorem pay1_apply (x : Vec Ideal S50000x128 .f32) (j : S1x128.Idx) (d : Fin 128) (hd : j 1 = d) :
    k0_pay1 x j = ∑ r : Fin 50000, x (ix2 r d) := by
  unfold k0_pay1
  exact (shapeCast_addUnit_apply (n := 1) (d := ![128]) _ shapeCasts_S128_S1x128 j).trans
    (reduce_apply x (fun a => j a.succ) d hd)

theorem pay3_apply (x : Vec Ideal S50000x128 .f32) (j : S1x1x128.Idx) (d : Fin 128) (hd : j 2 = d) :
    k0_pay3 x j = ∑ r : Fin 50000, x (ix2 r d) := by
  unfold k0_pay3
  exact (shapeCast_addUnit_apply (n := 2) (d := ![1, 128]) (k0_pay1 x) shapeCasts_S1x128_S1x1x128 j).trans
    (pay1_apply x (fun a => j a.succ) d hd)

/-- The same for the block's squares. -/
theorem pay2_apply (x : Vec Ideal S50000x128 .f32) (j : S1x128.Idx) (d : Fin 128) (hd : j 1 = d) :
    k0_pay2 x j = ∑ r : Fin 50000, x (ix2 r d) * x (ix2 r d) := by
  unfold k0_pay2
  exact (shapeCast_addUnit_apply (n := 1) (d := ![128]) _ shapeCasts_S128_S1x128 j).trans
    (reduce_apply (mulf x x) (fun a => j a.succ) d hd)

theorem pay4_apply (x : Vec Ideal S50000x128 .f32) (j : S1x1x128.Idx) (d : Fin 128) (hd : j 2 = d) :
    k0_pay4 x j = ∑ r : Fin 50000, x (ix2 r d) * x (ix2 r d) := by
  unfold k0_pay4
  exact (shapeCast_addUnit_apply (n := 2) (d := ![1, 128]) (k0_pay2 x) shapeCasts_S1x128_S1x1x128 j).trans
    (pay2_apply x (fun a => j a.succ) d hd)

/-! ## The input's blocks, read at an entry -/

variable (V : (c : Dev nD) → (b : Ref sig .tc) → Buf (Elt Ideal) ((c : Thread nD τ).loc b))

/-- The array of `x` as the region finds it. -/
abbrev X (c : Dev nD) : Vec Ideal S1000000x128 .f32 := V c (Pipeline.arrRef spec0 0)

/-- The input window's block index at point `t` is `(t, 0)`: decided over the grid. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Row `r` of block `t` is row `50000 t + r` of the array. -/
theorem iblk_apply (c : Dev nD) (t : Fin cfg0.N) (r : Fin 50000) (d : Fin 128) (h : t.val * 50000 + r.val < 1000000) :
    (Stats.iblk V c 0 t : Vec Ideal S50000x128 .f32) (ix2 r d) = X V c (ix2 ⟨t.val * 50000 + r.val, h⟩ d) := by
  obtain ⟨h0, h1⟩ := idx0 t
  unfold Stats.iblk X
  rw [View.read_apply]
  show V c (Pipeline.arrRef spec0 0) _ = V c (Pipeline.arrRef spec0 0) _
  congr 1
  funext a
  apply Fin.ext
  match a with
  | ⟨0, _⟩ => show win0_0.index t 0 * 50000 + 1 * r.val = t.val * 50000 + r.val; rw [h0]; omega
  | ⟨1, _⟩ => show win0_0.index t 1 * 128 + 1 * d.val = d.val; rw [h1]; omega

/-! ## The accumulators in closed form -/

/-- The column sums of block `n` of `x`, as the resetting store writes them (zero past the grid). -/
def bsum (c : Dev nD) (n : ℕ) (j : S1x1x128.Idx) : Ideal .f32 :=
  if h : n < cfg0.N then k0_pay3 (Stats.iblk V c 0 ⟨n, h⟩) j else 0

/-- The column sums of squares of block `n`. -/
def bsq (c : Dev nD) (n : ℕ) (j : S1x1x128.Idx) : Ideal .f32 :=
  if h : n < cfg0.N then k0_pay4 (Stats.iblk V c 0 ⟨n, h⟩) j else 0

/-- After point `10 q + j` the first accumulator holds the column sums of blocks `10 q … 10 q + j`, added up: it
    resets at the multiples of ten and adds the point's block at every other point. -/
theorem acc1_eq (c : Dev nD) (q j : ℕ) (hj : j < 10) (h : 10 * q + j < cfg0.N) (i : S1x1x128.Idx) :
    Stats.acc1 V c (10 * q + j) h i = ∑ s ∈ Finset.range (j + 1), bsum V c (10 * q + s) i := by
  have hfold := Pipeline.eq_accAt (Stats.acc1 V c) 10 (fun n hn => k0_pay3 (Stats.iblk V c 0 ⟨n, hn⟩))
    (fun n hn acc => k0_pay5 (Stats.iblk V c 0 ⟨n, hn⟩) acc)
    (fun n hn h0 => Stats.acc1_first V c ⟨n, hn⟩ h0)
    (fun n hn hne => Stats.acc1_next V c ⟨n + 1, hn⟩ hne) q j hj h
  have hadd := Pipeline.accAt_add_apply (fun n hn => k0_pay3 (Stats.iblk V c 0 ⟨n, hn⟩))
    (fun n hn acc => k0_pay5 (Stats.iblk V c 0 ⟨n, hn⟩) acc) (fun _ => (0 : Ideal .f32)) (bsum V c) (10 * q) 9
    (fun hb i => by unfold bsum; rw [dif_pos hb, zero_add])
    (fun n hn acc i _ _ => by unfold bsum; rw [dif_pos hn, pay5_eq]; rfl)
    j (by omega) h i
  rw [hfold, hadd, zero_add]

theorem acc2_eq (c : Dev nD) (q j : ℕ) (hj : j < 10) (h : 10 * q + j < cfg0.N) (i : S1x1x128.Idx) :
    Stats.acc2 V c (10 * q + j) h i = ∑ s ∈ Finset.range (j + 1), bsq V c (10 * q + s) i := by
  have hfold := Pipeline.eq_accAt (Stats.acc2 V c) 10 (fun n hn => k0_pay4 (Stats.iblk V c 0 ⟨n, hn⟩))
    (fun n hn acc => k0_pay6 (Stats.iblk V c 0 ⟨n, hn⟩) acc)
    (fun n hn h0 => Stats.acc2_first V c ⟨n, hn⟩ h0)
    (fun n hn hne => Stats.acc2_next V c ⟨n + 1, hn⟩ hne) q j hj h
  have hadd := Pipeline.accAt_add_apply (fun n hn => k0_pay4 (Stats.iblk V c 0 ⟨n, hn⟩))
    (fun n hn acc => k0_pay6 (Stats.iblk V c 0 ⟨n, hn⟩) acc) (fun _ => (0 : Ideal .f32)) (bsq V c) (10 * q) 9
    (fun hb i => by unfold bsq; rw [dif_pos hb, zero_add])
    (fun n hn acc i _ _ => by unfold bsq; rw [dif_pos hn, pay6_eq]; rfl)
    j (by omega) h i
  rw [hfold, hadd, zero_add]

/-- The last point of chunk `i` leaves, at lane `d`, the sum of column `d` over the chunk's ten blocks of 50000 rows. -/
theorem chunk1 (c : Dev nD) (i : Fin 2) (d : Fin 128) (h : 10 * i.val + 9 < cfg0.N) (j : S1x1x128.Idx) (hd : j 2 = d) :
    Stats.acc1 V c (10 * i.val + 9) h j
      = ∑ s : Fin 10, ∑ r : Fin 50000, X V c (ix2 ⟨(i.val * 10 + s.val) * 50000 + r.val, by omega⟩ d) := by
  have hN : cfg0.N = 20 := N_0
  rw [acc1_eq V c i.val 9 (by omega) h j, Finset.sum_range]
  refine Finset.sum_congr rfl fun s _ => ?_
  have hs : 10 * i.val + s.val < cfg0.N := by omega
  unfold bsum
  rw [dif_pos hs, pay3_apply _ j d hd]
  refine Finset.sum_congr rfl fun r _ => ?_
  rw [iblk_apply V c ⟨10 * i.val + s.val, hs⟩ r d (by show (10 * i.val + s.val) * 50000 + r.val < 1000000; omega)]
  have e : (⟨(10 * i.val + s.val) * 50000 + r.val, by omega⟩ : Fin 1000000) = ⟨(i.val * 10 + s.val) * 50000 + r.val, by omega⟩ :=
    Fin.ext (by show (10 * i.val + s.val) * 50000 + r.val = (i.val * 10 + s.val) * 50000 + r.val; omega)
  rw [e]

theorem chunk2 (c : Dev nD) (i : Fin 2) (d : Fin 128) (h : 10 * i.val + 9 < cfg0.N) (j : S1x1x128.Idx) (hd : j 2 = d) :
    Stats.acc2 V c (10 * i.val + 9) h j
      = ∑ s : Fin 10, ∑ r : Fin 50000, X V c (ix2 ⟨(i.val * 10 + s.val) * 50000 + r.val, by omega⟩ d)
          * X V c (ix2 ⟨(i.val * 10 + s.val) * 50000 + r.val, by omega⟩ d) := by
  have hN : cfg0.N = 20 := N_0
  rw [acc2_eq V c i.val 9 (by omega) h j, Finset.sum_range]
  refine Finset.sum_congr rfl fun s _ => ?_
  have hs : 10 * i.val + s.val < cfg0.N := by omega
  unfold bsq
  rw [dif_pos hs, pay4_apply _ j d hd]
  refine Finset.sum_congr rfl fun r _ => ?_
  rw [iblk_apply V c ⟨10 * i.val + s.val, hs⟩ r d (by show (10 * i.val + s.val) * 50000 + r.val < 1000000; omega)]
  have e : (⟨(10 * i.val + s.val) * 50000 + r.val, by omega⟩ : Fin 1000000) = ⟨(i.val * 10 + s.val) * 50000 + r.val, by omega⟩ :=
    Fin.ext (by show (10 * i.val + s.val) * 50000 + r.val = (i.val * 10 + s.val) * 50000 + r.val; omega)
  rw [e]

/-! ## The deliverables: the accumulators after a chunk's last point, as sums over the chunk's rows -/

/-- The accumulator at equal points and equal indices (the bound's proof does not matter). -/
theorem acc1_congr (c : Dev nD) (n n' : ℕ) (h : n < cfg0.N) (h' : n' < cfg0.N) (e : n = n') (k k' : S1x1x128.Idx) (ek : k = k') :
    Stats.acc1 V c n h k = Stats.acc1 V c n' h' k' := by subst e; subst ek; rfl
theorem acc2_congr (c : Dev nD) (n n' : ℕ) (h : n < cfg0.N) (h' : n' < cfg0.N) (e : n = n') (k k' : S1x1x128.Idx) (ek : k = k') :
    Stats.acc2 V c n h k = Stats.acc2 V c n' h' k' := by subst e; subst ek; rfl

/-- After the last point of chunk `i` the first output's buffer holds, at lane `d`, the sum of column `d` of `x` over the
    chunk's rows `500000 i … 500000 i + 499999`, block by block. -/
theorem acc1_sum (c : Dev nD) (i : Fin 2) (d : Fin 128) (h : 10 * i.val + 9 < cfg0.N) :
    Stats.acc1 (F := Ideal) V c (10 * i.val + 9) h (ix3 0 0 d)
      = ∑ s : Fin 10, ∑ r : Fin 50000, X V c (ix2 ⟨(i.val * 10 + s.val) * 50000 + r.val, by omega⟩ d) :=
  chunk1 V c i d h (ix3 0 0 d) rfl

/-- The second output's holds the sum of the squares. -/
theorem acc2_sum (c : Dev nD) (i : Fin 2) (d : Fin 128) (h : 10 * i.val + 9 < cfg0.N) :
    Stats.acc2 (F := Ideal) V c (10 * i.val + 9) h (ix3 0 0 d)
      = ∑ s : Fin 10, ∑ r : Fin 50000, X V c (ix2 ⟨(i.val * 10 + s.val) * 50000 + r.val, by omega⟩ d)
          * X V c (ix2 ⟨(i.val * 10 + s.val) * 50000 + r.val, by omega⟩ d) :=
  chunk2 V c i d h (ix3 0 0 d) rfl

end Cert.KernelIdeal.StatsValue

end
-- ==== Proof.StatsArr.lean ====
/-
  Region 0 (the statistics pass) as a VALUE: what its two output arrays, the partial sums and the partial sums of
  squares, hold after the region, in terms of the accumulators.

  The grid has 2 x 10 points; point t = 10 i + s works on chunk i.  Each output window's block at point t is row i of
  its (2, 1, 128) array, revisited over s: the staging buffer accumulates over the ten points of a chunk and is written
  back when the block index is about to change or the grid ends, that is at s = 9.  So row i of the array ends holding
  what the body left in the buffer at point 10 i + 9: the accumulator there.  The two flushing points' blocks are the
  array's two rows, so they cover it, and each writes its block of ONE whole-array function.
-/
import proofs.«173824_g90340342104516_pilotgen1_308_12_alg».proof.Proof.StatsHalf
import Idealize.ShloMosaic.Lib.ValueIdx
import Idealize.ShloMosaic.Lib.Pipeline.Value

set_option maxRecDepth 16384

noncomputable section

namespace Cert.KernelIdeal.StatsArr

open Cert.KernelIdeal Cert.KernelIdeal.Gen
open Idealize.ShloMosaic Idealize.ShloMosaic.TcCoe
open Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-- The printed index maps, decided over the grid's 20 points: each output window is at block (t / 10, 0, 0) at point t. -/
theorem idx_facts : ∀ t : Fin cfg0.N,
    (win0_1.index t (0 : Fin 3) = t.val / 10 ∧ win0_1.index t (1 : Fin 3) = 0 ∧ win0_1.index t (2 : Fin 3) = 0)
    ∧ (win0_2.index t (0 : Fin 3) = t.val / 10 ∧ win0_2.index t (1 : Fin 3) = 0 ∧ win0_2.index t (2 : Fin 3) = 0) :=
  (by decide +kernel : ∀ t : Fin grid0.N, _)

/-- The last point of the chunk of row j 0 is a point of the grid. -/
theorem chunk_lt (j : S2x1x128.Idx) : 10 * (j 0).val + 9 < cfg0.N := by
  have h : (j 0).val < 2 := (j 0).isLt
  have hN : cfg0.N = 20 := N_0
  omega
theorem chunk_lt' (i : Fin 2) : 10 * i.val + 9 < cfg0.N := by
  have h : i.val < 2 := i.isLt
  have hN : cfg0.N = 20 := N_0
  omega

/-! ## Output window 1: the array after the region -/

/-- The accumulator does not depend on how its position is spelt. -/
theorem acc1_congr (c : Dev nD) {n n' : ℕ} (e : n = n') (h : n < cfg0.N) (h' : n' < cfg0.N) :
    Stats.acc1 V c n h = Stats.acc1 V c n' h' := by
  subst e; rfl

/-- THE WHOLE-ARRAY FUNCTION: row i of the (2, 1, 128) array is the accumulator's row after the last point of chunk i. -/
def G1 (c : Dev nD) : S2x1x128.Idx → Elt F .f32 := fun j =>
  Stats.acc1 V c (10 * (j 0).val + 9) (chunk_lt j) (ix3 0 0 (j 2))

/-- An index of the array is in point t's block iff on each axis its coordinate is in the block's range there. -/
theorem mem_blk1 (t : Fin cfg0.N) (j : S2x1x128.Idx) :
    j ∈ ((cfg0.win 1).blk t).view.set ↔ ∀ a : Fin 3, win0_1.index t a * S1x1x128.size a ≤ (j a).val
      ∧ (j a).val < win0_1.index t a * S1x1x128.size a + S1x1x128.size a := by
  show j ∈ ((View.whole main_v0_0).slice (win0_1.rect t)).set ↔ _
  rw [View.set_slice_whole, Rect.mem_set_unit]
  exact Iff.rfl

/-- WHAT A FLUSHING POINT WRITES BACK is its block of G1: the point is the last of its chunk, t = 10 q + 9, its block
    is row q of the array, and it writes the accumulator as the body leaves it there. -/
theorem flushed1_eq (c : Dev nD) (t : Fin cfg0.N) (hf : (cfg0.win 1).flush t = true) :
    (Stats.dat V c).flushed 1 t = ((cfg0.win 1).blk t).view.read (Elt F) (G1 V c) := by
  have h9 : t.val % 10 = 9 := (flush0_1 t).mp hf
  obtain ⟨e0, e1, e2⟩ := (idx_facts t).1
  show (cfg0.win 1).cut (grid0.coords t) ((Stats.dat V c).after 1 t) = _
  rw [Stats.after1]
  funext y
  have hy0 : (y 0).val < 1 := (y 0).isLt
  have hy1 : (y 1).val < 1 := (y 1).isLt
  have E0 : ((((cfg0.win 1).blk t).view.emb y) 0).val = t.val / 10 := by
    show win0_1.index t (0 : Fin 3) * 1 + 1 * (y 0).val = t.val / 10; omega
  have E2 : ((((cfg0.win 1).blk t).view.emb y) 2).val = (y 2).val := by
    show win0_1.index t (2 : Fin 3) * 128 + 1 * (y 2).val = (y 2).val; omega
  have hn : t.val = 10 * ((((cfg0.win 1).blk t).view.emb y) 0).val + 9 := by rw [E0]; omega
  have hyy : y = ix3 (0 : Fin 1) (0 : Fin 1) ((((cfg0.win 1).blk t).view.emb y) 2) := by
    funext a; apply Fin.ext
    match a with
    | ⟨0, _⟩ => show (y 0).val = 0; omega
    | ⟨1, _⟩ => show (y 1).val = 0; omega
    | ⟨2, _⟩ => show (y 2).val = ((((cfg0.win 1).blk t).view.emb y) 2).val; omega
  show Stats.acc1 V c t.val t.isLt y = G1 V c (((cfg0.win 1).blk t).view.emb y)
  exact (congrFun (acc1_congr V c hn t.isLt (chunk_lt _)) y).trans (congrArg _ hyy)

/-- THE COVER: row i of the array is the block of the last point of chunk i, which writes back. -/
theorem cover1 (j : S2x1x128.Idx) :
    ∃ t : Fin cfg0.N, (cfg0.win 1).flush t = true ∧ j ∈ ((cfg0.win 1).blk t).view.set := by
  have hj0 : (j 0).val < 2 := (j 0).isLt
  have hj1 : (j 1).val < 1 := (j 1).isLt
  have hj2 : (j 2).val < 128 := (j 2).isLt
  obtain ⟨t, ht⟩ : ∃ t : Fin cfg0.N, t.val = 10 * (j 0).val + 9 := ⟨⟨10 * (j 0).val + 9, chunk_lt j⟩, rfl⟩
  obtain ⟨e0, e1, e2⟩ := (idx_facts t).1
  refine ⟨t, (flush0_1 t).mpr (by omega), ?_⟩
  rw [mem_blk1]
  intro a
  match a with
  | ⟨0, _⟩ =>
    show win0_1.index t (0 : Fin 3) * 1 ≤ (j 0).val ∧ (j 0).val < win0_1.index t (0 : Fin 3) * 1 + 1
    omega
  | ⟨1, _⟩ =>
    show win0_1.index t (1 : Fin 3) * 1 ≤ (j 1).val ∧ (j 1).val < win0_1.index t (1 : Fin 3) * 1 + 1
    omega
  | ⟨2, _⟩ =>
    show win0_1.index t (2 : Fin 3) * 128 ≤ (j 2).val ∧ (j 2).val < win0_1.index t (2 : Fin 3) * 128 + 128
    omega

/-- THE ARRAY AFTER THE REGION is G1. -/
theorem arr1_eq (c : Dev nD) : (Stats.dat V c).arrAt 1 cfg0.N = G1 V c :=
  (Stats.dat V c).arrAt_eq_of_cover 1 _ (flushed1_eq V c) cover1

/-- At row i and column d: the accumulator after the last point of chunk i, at column d. -/
theorem arr1_entry (c : Dev nD) (i : Fin 2) (d : Fin 128) :
    (Stats.dat V c).arrAt 1 cfg0.N (ix3 i 0 d) = Stats.acc1 V c (10 * i.val + 9) (chunk_lt' i) (ix3 0 0 d) :=
  congrFun (arr1_eq V c) (ix3 i 0 d)

/-! ## Output window 2: the array after the region -/

/-- The accumulator does not depend on how its position is spelt. -/
theorem acc2_congr (c : Dev nD) {n n' : ℕ} (e : n = n') (h : n < cfg0.N) (h' : n' < cfg0.N) :
    Stats.acc2 V c n h = Stats.acc2 V c n' h' := by
  subst e; rfl

/-- THE WHOLE-ARRAY FUNCTION: row i of the (2, 1, 128) array is the accumulator's row after the last point of chunk i. -/
def G2 (c : Dev nD) : S2x1x128.Idx → Elt F .f32 := fun j =>
  Stats.acc2 V c (10 * (j 0).val + 9) (chunk_lt j) (ix3 0 0 (j 2))

/-- An index of the array is in point t's block iff on each axis its coordinate is in the block's range there. -/
theorem mem_blk2 (t : Fin cfg0.N) (j : S2x1x128.Idx) :
    j ∈ ((cfg0.win 2).blk t).view.set ↔ ∀ a : Fin 3, win0_2.index t a * S1x1x128.size a ≤ (j a).val
      ∧ (j a).val < win0_2.index t a * S1x1x128.size a + S1x1x128.size a := by
  show j ∈ ((View.whole main_v0_1).slice (win0_2.rect t)).set ↔ _
  rw [View.set_slice_whole, Rect.mem_set_unit]
  exact Iff.rfl

/-- WHAT A FLUSHING POINT WRITES BACK is its block of G2: the point is the last of its chunk, t = 10 q + 9, its block
    is row q of the array, and it writes the accumulator as the body leaves it there. -/
theorem flushed2_eq (c : Dev nD) (t : Fin cfg0.N) (hf : (cfg0.win 2).flush t = true) :
    (Stats.dat V c).flushed 2 t = ((cfg0.win 2).blk t).view.read (Elt F) (G2 V c) := by
  have h9 : t.val % 10 = 9 := (flush0_2 t).mp hf
  obtain ⟨e0, e1, e2⟩ := (idx_facts t).2
  show (cfg0.win 2).cut (grid0.coords t) ((Stats.dat V c).after 2 t) = _
  rw [Stats.after2]
  funext y
  have hy0 : (y 0).val < 1 := (y 0).isLt
  have hy1 : (y 1).val < 1 := (y 1).isLt
  have E0 : ((((cfg0.win 2).blk t).view.emb y) 0).val = t.val / 10 := by
    show win0_2.index t (0 : Fin 3) * 1 + 1 * (y 0).val = t.val / 10; omega
  have E2 : ((((cfg0.win 2).blk t).view.emb y) 2).val = (y 2).val := by
    show win0_2.index t (2 : Fin 3) * 128 + 1 * (y 2).val = (y 2).val; omega
  have hn : t.val = 10 * ((((cfg0.win 2).blk t).view.emb y) 0).val + 9 := by rw [E0]; omega
  have hyy : y = ix3 (0 : Fin 1) (0 : Fin 1) ((((cfg0.win 2).blk t).view.emb y) 2) := by
    funext a; apply Fin.ext
    match a with
    | ⟨0, _⟩ => show (y 0).val = 0; omega
    | ⟨1, _⟩ => show (y 1).val = 0; omega
    | ⟨2, _⟩ => show (y 2).val = ((((cfg0.win 2).blk t).view.emb y) 2).val; omega
  show Stats.acc2 V c t.val t.isLt y = G2 V c (((cfg0.win 2).blk t).view.emb y)
  exact (congrFun (acc2_congr V c hn t.isLt (chunk_lt _)) y).trans (congrArg _ hyy)

/-- THE COVER: row i of the array is the block of the last point of chunk i, which writes back. -/
theorem cover2 (j : S2x1x128.Idx) :
    ∃ t : Fin cfg0.N, (cfg0.win 2).flush t = true ∧ j ∈ ((cfg0.win 2).blk t).view.set := by
  have hj0 : (j 0).val < 2 := (j 0).isLt
  have hj1 : (j 1).val < 1 := (j 1).isLt
  have hj2 : (j 2).val < 128 := (j 2).isLt
  obtain ⟨t, ht⟩ : ∃ t : Fin cfg0.N, t.val = 10 * (j 0).val + 9 := ⟨⟨10 * (j 0).val + 9, chunk_lt j⟩, rfl⟩
  obtain ⟨e0, e1, e2⟩ := (idx_facts t).2
  refine ⟨t, (flush0_2 t).mpr (by omega), ?_⟩
  rw [mem_blk2]
  intro a
  match a with
  | ⟨0, _⟩ =>
    show win0_2.index t (0 : Fin 3) * 1 ≤ (j 0).val ∧ (j 0).val < win0_2.index t (0 : Fin 3) * 1 + 1
    omega
  | ⟨1, _⟩ =>
    show win0_2.index t (1 : Fin 3) * 1 ≤ (j 1).val ∧ (j 1).val < win0_2.index t (1 : Fin 3) * 1 + 1
    omega
  | ⟨2, _⟩ =>
    show win0_2.index t (2 : Fin 3) * 128 ≤ (j 2).val ∧ (j 2).val < win0_2.index t (2 : Fin 3) * 128 + 128
    omega

/-- THE ARRAY AFTER THE REGION is G2. -/
theorem arr2_eq (c : Dev nD) : (Stats.dat V c).arrAt 2 cfg0.N = G2 V c :=
  (Stats.dat V c).arrAt_eq_of_cover 2 _ (flushed2_eq V c) cover2

/-- At row i and column d: the accumulator after the last point of chunk i, at column d. -/
theorem arr2_entry (c : Dev nD) (i : Fin 2) (d : Fin 128) :
    (Stats.dat V c).arrAt 2 cfg0.N (ix3 i 0 d) = Stats.acc2 V c (10 * i.val + 9) (chunk_lt' i) (ix3 0 0 d) :=
  congrFun (arr2_eq V c) (ix3 i 0 d)

end Cert.KernelIdeal.StatsArr

end
-- ==== Proof.LibBatchMoments.lean ====
/-
  A batch's second moment about its own mean, and a quotient by a square root, on the extended reals.

  For real numbers `x i` over a finite index type of `N` elements (`N ≠ 0`) and `μ = (∑ x) / N`,
      ∑ (x i − μ)² = ∑ x i² − μ · μ · N,
  the two ways of computing a batch's sum of squared deviations (directly, or from the sums of the values and of their
  squares).  On the extended reals the same holds for entries that are real, with the quotient by the real `N` read
  as the product with `1 / N`; finiteness is used (moving `μ` across the sum fails at infinities).  Then, for a real
  `v > 0` and ANY extended real `a`, `a · (1/√v)` is `a / √v`: the reciprocal square root against the quotient by
  the square root.  Beside them: a real sum's coercion is the sum of the coercions, the quotient of two reals is the
  real quotient, and a maximum of two reals is a real.
-/
import Mathlib
import Idealize.ShloMosaic.PureOps.Ideal
import Idealize.ShloMosaic.PureOps.Ideal.Laws

noncomputable section

namespace Idealize.ShloMosaic.BatchMoments

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real, on the extended reals, is the real quotient. -/
theorem div_real (a y : ℝ) (hy : y ≠ 0) : Ideal.div (a : EReal) (y : EReal) = ((a / y : ℝ) : EReal) := by
  rw [Ideal.div_coe hy, ← EReal.coe_mul, mul_one_div]

/-- Over the reals: the sum of squared deviations from the batch mean, from the two raw sums. -/
theorem sum_sq_dev {ι : Type*} [Fintype ι] (x : ι → ℝ) (n : ℝ) (hn : n ≠ 0) (hcard : (Fintype.card ι : ℝ) = n) :
    ∑ i, (x i - (∑ j, x j) / n) * (x i - (∑ j, x j) / n)
      = (∑ i, x i * x i) - (∑ j, x j) / n * ((∑ j, x j) / n) * n := by
  have h1 : ∀ i, (x i - (∑ j, x j) / n) * (x i - (∑ j, x j) / n)
      = x i * x i - 2 * ((∑ j, x j) / n) * x i + (∑ j, x j) / n * ((∑ j, x j) / n) := fun i => by ring
  simp only [h1]
  rw [Finset.sum_add_distrib, Finset.sum_sub_distrib, ← Finset.mul_sum, Finset.sum_const, Finset.card_univ,
    nsmul_eq_mul, hcard]
  field_simp
  ring

/-- The sum of squared deviations is not negative. -/
theorem sum_sq_dev_nonneg {ι : Type*} [Fintype ι] (x : ι → ℝ) (μ : ℝ) : 0 ≤ ∑ i, (x i - μ) * (x i - μ) :=
  Finset.sum_nonneg fun i _ => mul_self_nonneg _

/-- On the extended reals, for real entries: the directly computed sum of squared deviations from `(∑ x) / n` is a
    real `M ≥ 0`, and so is the one computed from the two raw sums — the same `M`. -/
theorem m2_batch {ι : Type*} [Fintype ι] (x : ι → ℝ) (n : ℝ) (hn : n ≠ 0) (hcard : (Fintype.card ι : ℝ) = n) :
    ∃ M : ℝ, 0 ≤ M
      ∧ (∑ i, ((x i : EReal) - Ideal.div (∑ j, (x j : EReal)) (n : EReal)) * ((x i : EReal) - Ideal.div (∑ j, (x j : EReal)) (n : EReal))) = (M : EReal)
      ∧ ((∑ i, (x i : EReal) * (x i : EReal))
          - Ideal.div (∑ j, (x j : EReal)) (n : EReal) * Ideal.div (∑ j, (x j : EReal)) (n : EReal) * (n : EReal)) = (M : EReal) := by
  refine ⟨∑ i, (x i - (∑ j, x j) / n) * (x i - (∑ j, x j) / n), sum_sq_dev_nonneg x _, ?_, ?_⟩
  · rw [← coe_sum, div_real _ _ hn, coe_sum]
    refine Finset.sum_congr rfl fun i _ => ?_
    rw [← EReal.coe_sub, ← EReal.coe_mul]
  · rw [sum_sq_dev x n hn hcard, ← coe_sum Finset.univ x, div_real _ _ hn]
    have : (∑ i, (x i : EReal) * (x i : EReal)) = ((∑ i, x i * x i : ℝ) : EReal) := by
      rw [coe_sum]; exact Finset.sum_congr rfl fun i _ => (EReal.coe_mul _ _).symm
    rw [this, ← EReal.coe_mul, ← EReal.coe_mul, ← EReal.coe_sub]

/-- The reciprocal square root of a positive real against the quotient by its square root: one value for every
    extended real numerator. -/
theorem mul_rsqrt_eq_div_sqrt (a : EReal) (v : ℝ) (hv : 0 < v) :
    a * Ideal.rsqrt (v : EReal) = Ideal.div a (Ideal.sqrt (v : EReal)) := by
  have hs : Real.sqrt v ≠ 0 := (Real.sqrt_pos.2 hv).ne'
  rw [Ideal.rsqrt_coe, if_neg (not_lt.2 hv.le), if_neg hv.ne', Ideal.sqrt_coe, if_neg (not_lt.2 hv.le),
    Ideal.div_coe hs, one_div]

end Idealize.ShloMosaic.BatchMoments

end
-- ==== Proof.LibWelfordNorm.lean ====
/-
  Normalising a batch by running mean / second-moment statistics updated with the batch (Chan's combine of Welford's
  statistics): the arrangement that computes the batch's second moment from the raw sums and multiplies by a
  reciprocal square root, against the arrangement that computes it about the batch mean and divides by a square root.

  For one column: the batch `x : ι → ℝ` of `N = |ι|` entries, running statistics `count = c ≥ 0`, `mean = μ`,
  `m2 = q ≥ 0`, and `ε > 0`.  With `T = ∑ x`, `mean_b = T / N`, `new_count = c + N`, `δ = mean_b − μ`,
  `new_mean = μ + δ · (N / new_count)`, `new_m2 = q + m2_b + δ · δ · (c · N / new_count)`,
  `denom = max (new_count − 1) 1` and `v = new_m2 / denom + ε`:
      (x i − new_mean) · rsqrt v   with   m2_b = ∑ x² − mean_b · mean_b · N
  equals
      (x i − new_mean) / sqrt v    with   m2_b = ∑ (x − mean_b)²
  on the extended reals.  Every intermediate is a real (`new_count ≥ N > 0`, `denom ≥ 1`), the two second moments
  are one real `M ≥ 0`, so `new_m2 ≥ 0` and `v ≥ ε > 0`, where the reciprocal square root is the reciprocal of the
  square root.  Without `c ≥ 0` and `q ≥ 0` the statement fails: at `v < 0` the first is `a · ⊥`, the second `a / ⊥ = 0`.
-/
import proofs.«173824_g90340342104516_pilotgen1_308_12_alg».proof.Proof.LibBatchMoments

noncomputable section

namespace Idealize.ShloMosaic.WelfordNorm

open Idealize.ShloMosaic Idealize.ShloMosaic.BatchMoments

/-- The variance under the root, from the batch's second moment `m2b`, as the programs spell it. -/
def varTerm (tot cnt mu q m2b n one eps : EReal) : EReal :=
  Ideal.div (q + m2b + (Ideal.div tot n - mu) * (Ideal.div tot n - mu) * Ideal.div (cnt * n) (cnt + n))
    (max (cnt + n - one) one) + eps

/-- The updated mean. -/
def newMean (tot cnt mu n : EReal) : EReal :=
  mu + (Ideal.div tot n - mu) * Ideal.div n (cnt + n)

/-- For real statistics with `count ≥ 0`, `m2 ≥ 0`, a second moment `M ≥ 0`, a batch size `N > 0` and `ε > 0`
    the variance under the root is a positive real. -/
theorem varTerm_real (T c μ q M N e : ℝ) (hc : 0 ≤ c) (hq : 0 ≤ q) (hM : 0 ≤ M) (hN : 0 < N) (he : 0 < e) :
    ∃ v : ℝ, 0 < v ∧ varTerm (T : EReal) (c : EReal) (μ : EReal) (q : EReal) (M : EReal) (N : EReal) ((1 : ℝ) : EReal) (e : EReal) = (v : EReal) := by
  have hcN : 0 < c + N := by linarith
  have hden : 0 < max (c + N - 1) 1 := lt_of_lt_of_le one_pos (le_max_right _ _)
  have e1 : Ideal.div (T : EReal) (N : EReal) = ((T / N : ℝ) : EReal) := div_real _ _ hN.ne'
  have e2 : (c : EReal) + (N : EReal) = ((c + N : ℝ) : EReal) := (EReal.coe_add _ _).symm
  have e3 : Ideal.div ((c : EReal) * (N : EReal)) ((c + N : ℝ) : EReal) = ((c * N / (c + N) : ℝ) : EReal) := by
    rw [← EReal.coe_mul]; exact div_real _ _ hcN.ne'
  have e4 : max (((c + N : ℝ) : EReal) - ((1 : ℝ) : EReal)) ((1 : ℝ) : EReal) = ((max (c + N - 1) 1 : ℝ) : EReal) := by
    rw [← EReal.coe_sub]; exact (EReal.coe_strictMono.monotone.map_max).symm
  refine ⟨(q + M + (T / N - μ) * (T / N - μ) * (c * N / (c + N))) / max (c + N - 1) 1 + e, ?_, ?_⟩
  · have h3 : 0 ≤ c * N / (c + N) := div_nonneg (mul_nonneg hc hN.le) hcN.le
    have h4 : 0 ≤ (T / N - μ) * (T / N - μ) * (c * N / (c + N)) := mul_nonneg (mul_self_nonneg _) h3
    have h5 : 0 ≤ (q + M + (T / N - μ) * (T / N - μ) * (c * N / (c + N))) / max (c + N - 1) 1 :=
      div_nonneg (by linarith) hden.le
    linarith
  · unfold varTerm
    rw [e1, e2, e3, e4, ← EReal.coe_sub, ← EReal.coe_mul, ← EReal.coe_mul, ← EReal.coe_add, ← EReal.coe_add,
      div_real _ _ hden.ne', ← EReal.coe_add]

/-- THE LAW. One column of a batch of real entries, real running statistics with `count ≥ 0` and `m2 ≥ 0`: the
    raw-sums-and-reciprocal-root arrangement equals the deviations-and-quotient arrangement, at every entry. -/
theorem norm_eq {ι : Type*} [Fintype ι] (x : ι → ℝ) (i : ι) (c μ q N e : ℝ) (hc : 0 ≤ c) (hq : 0 ≤ q)
    (hN : 0 < N) (hcard : (Fintype.card ι : ℝ) = N) (he : 0 < e) :
    ((x i : EReal) - newMean (∑ j, (x j : EReal)) c μ N)
        * Ideal.rsqrt (varTerm (∑ j, (x j : EReal)) c μ q
            ((∑ j, (x j : EReal) * (x j : EReal))
              - Ideal.div (∑ j, (x j : EReal)) (N : EReal) * Ideal.div (∑ j, (x j : EReal)) (N : EReal) * (N : EReal))
            N ((1 : ℝ) : EReal) e)
      = Ideal.div ((x i : EReal) - newMean (∑ j, (x j : EReal)) c μ N)
          (Ideal.sqrt (varTerm (∑ j, (x j : EReal)) c μ q
            (∑ k, ((x k : EReal) - Ideal.div (∑ j, (x j : EReal)) (N : EReal)) * ((x k : EReal) - Ideal.div (∑ j, (x j : EReal)) (N : EReal)))
            N ((1 : ℝ) : EReal) e)) := by
  obtain ⟨M, hM, h1, h2⟩ := m2_batch x N hN.ne' hcard
  rw [h1, h2, ← coe_sum Finset.univ x]
  obtain ⟨v, hv, hV⟩ := varTerm_real (∑ j, x j) c μ q M N e hc hq hM hN he
  rw [hV]
  exact mul_rsqrt_eq_div_sqrt _ v hv

end Idealize.ShloMosaic.WelfordNorm

end
-- ==== Proof.ApplyValue.lean ====
/-
  Region 1 (the normalisation pass) as a VALUE: the output array after the region, entry by entry, as a function of the
  arrays the region finds.

  At row r and column d the output is
      (x[r, d] − new_mean[d]) · rsqrt (v[d])
  where, with tot = psum[0, 0, d] + psum[1, 0, d] and totsq = psq[0, 0, d] + psq[1, 0, d] (the two partial sums of the
  column and of its squares), n the batch size and (count, mean, m2) the running statistics of the column,
      new_mean = mean + (tot / n − mean) · (n / (count + n)),
      v        = (m2 + (totsq − (tot / n) · (tot / n) · n) + (tot / n − mean)² · (count · n / (count + n)))
                   / max (count + n − 1) 1 + eps.

  Two steps.  (a) The body's payload read at one entry of the block: every operation is pointwise on the extended
  reals, the two broadcasts of a (1, 128) row over the block's rows read the row at the entry's column, and the sum over
  the two partials is a two-term sum.  (b) From blocks to the array: 35 blocks of 28800 rows cover the 1000000 rows, the
  last one overhanging the array's end; what a point writes back is the part of its block inside the array, and that part
  is the block of ONE whole-array function, so the array ends holding that function.
-/
import proofs.«173824_g90340342104516_pilotgen1_308_12_alg».proof.Proof.ApplyHalf
import proofs.«173824_g90340342104516_pilotgen1_308_12_alg».proof.Proof.LibWelfordNorm
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.KernelIdeal.ApplyValue

open Cert.KernelIdeal Cert.KernelIdeal.Gen
open Idealize.ShloMosaic Idealize.ShloMosaic.TcCoe
open Idealize.ShloMosaic.ValueIdx
open Idealize.ShloMosaic.WelfordNorm (newMean varTerm)
open Idealize.SL.Sem
open Idealize.ShloMosaic.Pipeline (Dat Cfg Window)

/-! ## The constants -/

/-- The words of the batch size, of one and of eps, as extended reals. -/
abbrev nW : EReal := Ideal.ofBits .f32 0x49742400#32
abbrev oneW : EReal := Ideal.ofBits .f32 0x3F800000#32
abbrev epsW : EReal := Ideal.ofBits .f32 0x3727C5AC#32

/-! ## (a) The payload at an entry -/

section Payload

variable (x0 : Vec Ideal S28800x128 .f32) (x1 x2 : Vec Ideal S2x1x128 .f32) (x3 x4 x5 : Vec Ideal S1x128 .f32)

/-- A shape cast of a (1, 128) row to its own shape is the row. -/
theorem pay2_eq : k1_pay2 x3 = x3 := shapeCast_self _ _
theorem pay3_eq : k1_pay3 x4 = x4 := shapeCast_self _ _

/-- The sum over the two partials, at column d: a two-term sum. -/
theorem sum2_apply (d : Fin 128) :
    multiReduction (F := Ideal) .add [0] S1x128 (shapeCast S2x1x128 x1 shapeCasts_S2x1x128_S2x1x128) 0x00000000#32
        reduces_S2x1x128_S1x128 (.inl rfl) rfl (ix2 0 d)
      = x1 (ix3 0 0 d) + x1 (ix3 1 0 d) := by
  rw [shapeCast_self]
  show Ideal.reduceAdd reduces_S2x1x128_S1x128 x1 (ix2 0 d) = _
  rw [Ideal.reduceAdd_single (a := (0 : Fin 3)) reduces_S2x1x128_S1x128 x1 (ix2 0 d)]
  refine (Fin.sum_univ_two (fun k : Fin 2 => x1 (reduces_S2x1x128_S1x128.lift (ix2 0 d) k))).trans ?_
  have e0 : reduces_S2x1x128_S1x128.lift (ix2 (0 : Fin 1) d) (0 : Fin 2) = ix3 (0 : Fin 2) (0 : Fin 1) d := by
    funext a; match a with | ⟨0, _⟩ => exact Fin.ext rfl | ⟨1, _⟩ => exact Fin.ext rfl | ⟨2, _⟩ => exact Fin.ext rfl
  have e1 : reduces_S2x1x128_S1x128.lift (ix2 (0 : Fin 1) d) (1 : Fin 2) = ix3 (1 : Fin 2) (0 : Fin 1) d := by
    funext a; match a with | ⟨0, _⟩ => exact Fin.ext rfl | ⟨1, _⟩ => exact Fin.ext rfl | ⟨2, _⟩ => exact Fin.ext rfl
  exact congrArg₂ (· + ·) (congrArg x1 e0) (congrArg x1 e1)

/-- The batch mean of column d: the total over the batch size. -/
theorem pay5_apply (d : Fin 128) : k1_pay5 x1 (ix2 0 d) = Ideal.div (x1 (ix3 0 0 d) + x1 (ix3 1 0 d)) nW :=
  congrArg (fun s => Ideal.div s nW) (sum2_apply x1 d)

end Payload

section Payload2

variable (x0 : Vec Ideal S28800x128 .f32) (x1 x2 : Vec Ideal S2x1x128 .f32) (x3 x4 x5 : Vec Ideal S1x128 .f32)

/-- The new count: the running count plus the batch size. -/
theorem pay4_apply (i : S1x128.Idx) : k1_pay4 x3 i = x3 i + nW :=
  (show k1_pay4 x3 i = k1_pay2 x3 i + nW from rfl).trans (by rw [pay2_eq])

/-- The batch mean less the running mean. -/
theorem pay6_apply (d : Fin 128) :
    k1_pay6 x1 x4 (ix2 0 d) = Ideal.div (x1 (ix3 0 0 d) + x1 (ix3 1 0 d)) nW - x4 (ix2 0 d) :=
  (show k1_pay6 x1 x4 (ix2 0 d) = k1_pay5 x1 (ix2 0 d) - k1_pay3 x4 (ix2 0 d) from rfl).trans (by rw [pay5_apply, pay3_eq])

/-- The new mean of column d. -/
theorem pay7_apply (d : Fin 128) :
    k1_pay7 x1 x3 x4 (ix2 0 d) = newMean (x1 (ix3 0 0 d) + x1 (ix3 1 0 d)) (x3 (ix2 0 d)) (x4 (ix2 0 d)) nW :=
  (show k1_pay7 x1 x3 x4 (ix2 0 d)
      = k1_pay3 x4 (ix2 0 d) + k1_pay6 x1 x4 (ix2 0 d) * Ideal.div nW (k1_pay4 x3 (ix2 0 d)) from rfl).trans
    (by rw [pay3_eq, pay6_apply, pay4_apply]; rfl)

/-- The new variance of column d, before eps is added. -/
theorem pay8_apply (d : Fin 128) :
    k1_pay8 x1 x2 x3 x4 x5 (ix2 0 d) + epsW
      = varTerm (x1 (ix3 0 0 d) + x1 (ix3 1 0 d)) (x3 (ix2 0 d)) (x4 (ix2 0 d)) (x5 (ix2 0 d))
          ((x2 (ix3 0 0 d) + x2 (ix3 1 0 d))
            - Ideal.div (x1 (ix3 0 0 d) + x1 (ix3 1 0 d)) nW * Ideal.div (x1 (ix3 0 0 d) + x1 (ix3 1 0 d)) nW * nW)
          nW oneW epsW := by
  have h : k1_pay8 x1 x2 x3 x4 x5 (ix2 0 d)
      = Ideal.div
          ((shapeCast S1x128 x5 shapeCasts_S1x128_S1x128 (ix2 0 d)
              + (multiReduction (F := Ideal) .add [0] S1x128 (shapeCast S2x1x128 x2 shapeCasts_S2x1x128_S2x1x128) 0x00000000#32
                    reduces_S2x1x128_S1x128 (.inl rfl) rfl (ix2 0 d)
                  - k1_pay5 x1 (ix2 0 d) * k1_pay5 x1 (ix2 0 d) * nW))
            + k1_pay6 x1 x4 (ix2 0 d) * k1_pay6 x1 x4 (ix2 0 d) * Ideal.div (k1_pay2 x3 (ix2 0 d) * nW) (k1_pay4 x3 (ix2 0 d)))
          (max (k1_pay4 x3 (ix2 0 d) - oneW) oneW) := rfl
  rw [h, shapeCast_self x5 shapeCasts_S1x128_S1x128, sum2_apply x2 d, pay5_apply, pay6_apply, pay2_eq, pay4_apply]
  rfl

/-- The body's new mean and new variance, of the loaded buffers, at column d. -/
theorem newMean_apply (d : Fin 128) :
    Apply.newMean x1 x3 x4 (ix2 0 d) = newMean (x1 (ix3 0 0 d) + x1 (ix3 1 0 d)) (x3 (ix2 0 d)) (x4 (ix2 0 d)) nW := by
  unfold Apply.newMean
  rw [View.ld_unit_zero Apply.zeros3, View.ld_unit_zero Apply.zeros2, View.ld_unit_zero Apply.zeros2]
  exact pay7_apply x1 x3 x4 d

theorem newVar_apply (d : Fin 128) :
    Apply.newVar x1 x2 x3 x4 x5 (ix2 0 d) + epsW
      = varTerm (x1 (ix3 0 0 d) + x1 (ix3 1 0 d)) (x3 (ix2 0 d)) (x4 (ix2 0 d)) (x5 (ix2 0 d))
          ((x2 (ix3 0 0 d) + x2 (ix3 1 0 d))
            - Ideal.div (x1 (ix3 0 0 d) + x1 (ix3 1 0 d)) nW * Ideal.div (x1 (ix3 0 0 d) + x1 (ix3 1 0 d)) nW * nW)
          nW oneW epsW := by
  unfold Apply.newVar
  rw [View.ld_unit_zero Apply.zeros3, View.ld_unit_zero Apply.zeros3, View.ld_unit_zero Apply.zeros2,
    View.ld_unit_zero Apply.zeros2, View.ld_unit_zero Apply.zeros2]
  exact pay8_apply x1 x2 x3 x4 x5 d

/-- A (1, 128) row broadcast over the block's rows reads, at row p and column d, the row at column d. -/
theorem bcast_apply (v : S1x128.Idx → EReal) (p : Fin 28800) (d : Fin 128) :
    broadcastTo S28800x128 v broadcasts_S1x128_S28800x128 (ix2 p d) = v (ix2 0 d) :=
  broadcastTo_apply v _ (ix2 p d) (ix2 0 d) (fun a => by
    match a with
    | ⟨0, _⟩ => rfl
    | ⟨1, _⟩ => rfl)

/-- THE PAYLOAD AT AN ENTRY: row p, column d of the output block is the data block's entry there less the column's new
    mean, times the reciprocal square root of the column's new variance plus eps. -/
theorem out6_entry (p : Fin 28800) (d : Fin 128) :
    Apply.out6 x0 x1 x2 x3 x4 x5 (ix2 p d)
      = (x0 (ix2 p d) - newMean (x1 (ix3 0 0 d) + x1 (ix3 1 0 d)) (x3 (ix2 0 d)) (x4 (ix2 0 d)) nW)
          * Ideal.rsqrt (varTerm (x1 (ix3 0 0 d) + x1 (ix3 1 0 d)) (x3 (ix2 0 d)) (x4 (ix2 0 d)) (x5 (ix2 0 d))
              ((x2 (ix3 0 0 d) + x2 (ix3 1 0 d))
                - Ideal.div (x1 (ix3 0 0 d) + x1 (ix3 1 0 d)) nW * Ideal.div (x1 (ix3 0 0 d) + x1 (ix3 1 0 d)) nW * nW)
              nW oneW epsW) := by
  rw [Apply.out6_apply, bcast_apply, bcast_apply]
  show (x0 (ix2 p d) - Apply.newMean x1 x3 x4 (ix2 0 d)) * Ideal.rsqrt (Apply.newVar x1 x2 x3 x4 x5 (ix2 0 d) + epsW) = _
  rw [newMean_apply, newVar_apply]

/-- The same at any index of the block, by its coordinates. -/
theorem out6_entry' (y : S28800x128.Idx) :
    Apply.out6 x0 x1 x2 x3 x4 x5 y
      = (x0 y - newMean (x1 (ix3 0 0 (y 1)) + x1 (ix3 1 0 (y 1))) (x3 (ix2 0 (y 1))) (x4 (ix2 0 (y 1))) nW)
          * Ideal.rsqrt (varTerm (x1 (ix3 0 0 (y 1)) + x1 (ix3 1 0 (y 1))) (x3 (ix2 0 (y 1))) (x4 (ix2 0 (y 1))) (x5 (ix2 0 (y 1)))
              ((x2 (ix3 0 0 (y 1)) + x2 (ix3 1 0 (y 1)))
                - Ideal.div (x1 (ix3 0 0 (y 1)) + x1 (ix3 1 0 (y 1))) nW * Ideal.div (x1 (ix3 0 0 (y 1)) + x1 (ix3 1 0 (y 1))) nW * nW)
              nW oneW epsW) := by
  obtain ⟨p, d, rfl⟩ : ∃ p d, y = ix2 p d := ⟨y 0, y 1, eq_ix2 y⟩
  exact out6_entry x0 x1 x2 x3 x4 x5 p d

end Payload2

/-! ## (b) From the blocks to the array -/

variable (V : (c : Dev nD) → (b : Ref sig .tc) → Buf (Elt Ideal) ((c : Thread nD τ).loc b))

/-- The arrays as region 1 finds them: the data, the two partial sums (of the entries and of their squares), and the
    running count, mean and second moment. -/
abbrev Xa (c : Dev nD) : S1000000x128.Idx → EReal := V c (Pipeline.arrRef spec1 0)
abbrev Pa (c : Dev nD) : S2x1x128.Idx → EReal := V c (Pipeline.arrRef spec1 1)
abbrev Sa (c : Dev nD) : S2x1x128.Idx → EReal := V c (Pipeline.arrRef spec1 2)
abbrev Ca (c : Dev nD) : S1x128.Idx → EReal := V c (Pipeline.arrRef spec1 3)
abbrev Mua (c : Dev nD) : S1x128.Idx → EReal := V c (Pipeline.arrRef spec1 4)
abbrev Qa (c : Dev nD) : S1x128.Idx → EReal := V c (Pipeline.arrRef spec1 5)

/-- THE WHOLE-ARRAY FUNCTION: the normalised data, entry by entry. -/
def G (c : Dev nD) : S1000000x128.Idx → EReal := fun i =>
  (Xa V c i - newMean (Pa V c (ix3 0 0 (i 1)) + Pa V c (ix3 1 0 (i 1))) (Ca V c (ix2 0 (i 1))) (Mua V c (ix2 0 (i 1))) nW)
    * Ideal.rsqrt (varTerm (Pa V c (ix3 0 0 (i 1)) + Pa V c (ix3 1 0 (i 1))) (Ca V c (ix2 0 (i 1))) (Mua V c (ix2 0 (i 1))) (Qa V c (ix2 0 (i 1)))
        ((Sa V c (ix3 0 0 (i 1)) + Sa V c (ix3 1 0 (i 1)))
          - Ideal.div (Pa V c (ix3 0 0 (i 1)) + Pa V c (ix3 1 0 (i 1))) nW * Ideal.div (Pa V c (ix3 0 0 (i 1)) + Pa V c (ix3 1 0 (i 1))) nW * nW)
        nW oneW epsW)

/-- The printed index maps, decided over the grid's 35 points: the data window and the output window are at block
    (t, 0) at point t, the five statistics windows at block 0 on every axis, and the output's block has 28800 rows inside
    the array at every point but the last, where it has 20800 (34 * 28800 + 20800 = 1000000), and all 128 columns. -/
theorem idx_facts : ∀ t : Fin cfg1.N,
    (win1_0.index t (0 : Fin 2) = t.val ∧ win1_0.index t (1 : Fin 2) = 0
      ∧ win1_6.index t (0 : Fin 2) = t.val ∧ win1_6.index t (1 : Fin 2) = 0)
    ∧ ((t.val < 34 → win1_6.xsize (grid1.coords t) (0 : Fin 2) = 28800)
      ∧ (t.val = 34 → win1_6.xsize (grid1.coords t) (0 : Fin 2) = 20800)
      ∧ win1_6.xsize (grid1.coords t) (1 : Fin 2) = 128)
    ∧ (win1_1.index t (0 : Fin 3) = 0 ∧ win1_1.index t (1 : Fin 3) = 0 ∧ win1_1.index t (2 : Fin 3) = 0)
    ∧ (win1_2.index t (0 : Fin 3) = 0 ∧ win1_2.index t (1 : Fin 3) = 0 ∧ win1_2.index t (2 : Fin 3) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

/-- A statistics window's block is its whole array: read through it, the array. -/
theorem iblk1_eq (c : Dev nD) (t : Fin cfg1.N) : Apply.iblk V c 1 t = Pa V c := by
  obtain ⟨-, -, ⟨e0, e1, e2⟩, -, -, -, -⟩ := idx_facts t
  funext j
  show V c (Pipeline.arrRef spec1 1) (((cfg1.win 1).blk t).view.emb j) = V c (Pipeline.arrRef spec1 1) j
  refine congrArg _ (funext fun a => Fin.ext ?_)
  match a with
  | ⟨0, _⟩ => show win1_1.index t (0 : Fin 3) * 2 + 1 * (j 0).val = (j 0).val; omega
  | ⟨1, _⟩ => show win1_1.index t (1 : Fin 3) * 1 + 1 * (j 1).val = (j 1).val; omega
  | ⟨2, _⟩ => show win1_1.index t (2 : Fin 3) * 128 + 1 * (j 2).val = (j 2).val; omega
theorem iblk2_eq (c : Dev nD) (t : Fin cfg1.N) : Apply.iblk V c 2 t = Sa V c := by
  obtain ⟨-, -, -, ⟨e0, e1, e2⟩, -, -, -⟩ := idx_facts t
  funext j
  show V c (Pipeline.arrRef spec1 2) (((cfg1.win 2).blk t).view.emb j) = V c (Pipeline.arrRef spec1 2) j
  refine congrArg _ (funext fun a => Fin.ext ?_)
  match a with
  | ⟨0, _⟩ => show win1_2.index t (0 : Fin 3) * 2 + 1 * (j 0).val = (j 0).val; omega
  | ⟨1, _⟩ => show win1_2.index t (1 : Fin 3) * 1 + 1 * (j 1).val = (j 1).val; omega
  | ⟨2, _⟩ => show win1_2.index t (2 : Fin 3) * 128 + 1 * (j 2).val = (j 2).val; omega
theorem iblk3_eq (c : Dev nD) (t : Fin cfg1.N) : Apply.iblk V c 3 t = Ca V c := by
  obtain ⟨-, -, -, -, ⟨e0, e1⟩, -, -⟩ := idx_facts t
  funext j
  show V c (Pipeline.arrRef spec1 3) (((cfg1.win 3).blk t).view.emb j) = V c (Pipeline.arrRef spec1 3) j
  refine congrArg _ (funext fun a => Fin.ext ?_)
  match a with
  | ⟨0, _⟩ => show win1_3.index t (0 : Fin 2) * 1 + 1 * (j 0).val = (j 0).val; omega
  | ⟨1, _⟩ => show win1_3.index t (1 : Fin 2) * 128 + 1 * (j 1).val = (j 1).val; omega
theorem iblk4_eq (c : Dev nD) (t : Fin cfg1.N) : Apply.iblk V c 4 t = Mua V c := by
  obtain ⟨-, -, -, -, -, ⟨e0, e1⟩, -⟩ := idx_facts t
  funext j
  show V c (Pipeline.arrRef spec1 4) (((cfg1.win 4).blk t).view.emb j) = V c (Pipeline.arrRef spec1 4) j
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 128 + 1 * (j 1).val = (j 1).val; omega
theorem iblk5_eq (c : Dev nD) (t : Fin cfg1.N) : Apply.iblk V c 5 t = Qa V c := by
  obtain ⟨-, -, -, -, -, -, ⟨e0, e1⟩⟩ := idx_facts t
  funext j
  show V c (Pipeline.arrRef spec1 5) (((cfg1.win 5).blk t).view.emb j) = V c (Pipeline.arrRef spec1 5) j
  refine congrArg _ (funext fun a => Fin.ext ?_)
  match a with
  | ⟨0, _⟩ => show win1_5.index t (0 : Fin 2) * 1 + 1 * (j 0).val = (j 0).val; omega
  | ⟨1, _⟩ => show win1_5.index t (1 : Fin 2) * 128 + 1 * (j 1).val = (j 1).val; omega

/-- WHAT POINT t WRITES BACK is block t of G: the part of the output buffer inside the array, entry by entry the
    payload of the data block's entry (the data window and the output window are at the same block) and of the whole
    statistics arrays. -/
theorem flushed6_eq (c : Dev nD) (t : Fin cfg1.N) :
    (Apply.dat (F := Ideal) V c).flushed 6 t = ((cfg1.win 6).blk t).view.read (Elt Ideal) (G V c) := by
  show (cfg1.win 6).cut (grid1.coords t) ((Apply.dat (F := Ideal) V c).after 6 t) = _
  rw [Apply.after6, iblk1_eq, iblk2_eq, iblk3_eq, iblk4_eq, iblk5_eq]
  obtain ⟨⟨e00, e01, e60, e61⟩, -, -, -, -, -, -⟩ := idx_facts t
  funext y
  show Apply.out6 (Apply.xblkF V c t) (Pa V c) (Sa V c) (Ca V c) (Mua V c) (Qa V c) (win1_6.xinj (grid1.coords t) y)
    = G V c (((cfg1.win 6).blk t).view.emb y)
  refine (out6_entry' _ _ _ _ _ _ _).trans ?_
  have hx : Apply.xblkF V c t (win1_6.xinj (grid1.coords t) y) = Xa V c (((cfg1.win 6).blk t).view.emb y) := by
    refine (win1_0.fill_xinj (grid1.coords t) _ _ y).trans ?_
    show V c (Pipeline.arrRef spec1 0) (((cfg1.win 0).blk t).view.emb y) = V c (Pipeline.arrRef spec1 0) (((cfg1.win 6).blk t).view.emb y)
    refine congrArg _ (funext fun a => Fin.ext ?_)
    match a with
    | ⟨0, _⟩ => show win1_0.index t (0 : Fin 2) * 28800 + 1 * (y 0).val = win1_6.index t (0 : Fin 2) * 28800 + 1 * (y 0).val; omega
    | ⟨1, _⟩ => show win1_0.index t (1 : Fin 2) * 128 + 1 * (y 1).val = win1_6.index t (1 : Fin 2) * 128 + 1 * (y 1).val; omega
  have hd : (win1_6.xinj (grid1.coords t) y) 1 = (((cfg1.win 6).blk t).view.emb y) 1 :=
    Fin.ext (by show (y 1).val = win1_6.index t (1 : Fin 2) * 128 + 1 * (y 1).val; omega)
  rw [hx, hd]
  rfl

/-- An index of the array is in point t's block iff on each axis its coordinate is in the block's range there, cut at
    the array's end. -/
theorem mem_blk6 (t : Fin cfg1.N) (i : S1000000x128.Idx) :
    i ∈ ((cfg1.win 6).blk t).view.set ↔ ∀ a : Fin 2, win1_6.index t a * S28800x128.size a ≤ (i a).val
      ∧ (i a).val < win1_6.index t a * S28800x128.size a + win1_6.xsize (grid1.coords t) a := by
  show i ∈ ((View.whole main_v4).slice (win1_6.rect t)).set ↔ _
  rw [View.set_slice_whole, Rect.mem_set_unit]
  exact Iff.rfl

/-- THE COVER: row r is in the block of point r / 28800 (the last block's 20800 rows inside the array reach the array's
    last row), every column in every block. -/
theorem cover6 (i : S1000000x128.Idx) :
    ∃ t : Fin cfg1.N, (cfg1.win 6).flush t = true ∧ i ∈ ((cfg1.win 6).blk t).view.set := by
  have hN : cfg1.N = 35 := N_1
  have hi0 : (i 0).val < 1000000 := (i 0).isLt
  have hi1 : (i 1).val < 128 := (i 1).isLt
  obtain ⟨t, ht⟩ : ∃ t : Fin cfg1.N, t.val = (i 0).val / 28800 := ⟨⟨(i 0).val / 28800, by omega⟩, rfl⟩
  obtain ⟨⟨-, -, e60, e61⟩, ⟨s0, s1, s2⟩, -, -, -, -, -⟩ := idx_facts t
  refine ⟨t, flush1_6 t, ?_⟩
  rw [mem_blk6]
  intro a
  match a with
  | ⟨0, _⟩ =>
    show win1_6.index t (0 : Fin 2) * 28800 ≤ (i 0).val
      ∧ (i 0).val < win1_6.index t (0 : Fin 2) * 28800 + win1_6.xsize (grid1.coords t) (0 : Fin 2)
    rw [e60]
    by_cases h34 : t.val < 34
    · rw [s0 h34]; omega
    · have h : t.val = 34 := by omega
      rw [s1 h]; omega
  | ⟨1, _⟩ =>
    show win1_6.index t (1 : Fin 2) * 128 ≤ (i 1).val
      ∧ (i 1).val < win1_6.index t (1 : Fin 2) * 128 + win1_6.xsize (grid1.coords t) (1 : Fin 2)
    rw [e61, s2]; omega

/-- THE ARRAY AFTER THE REGION is G of the arrays the region finds. -/
theorem arrAt6_eq (c : Dev nD) : (Apply.dat (F := Ideal) V c).arrAt 6 cfg1.N = G V c :=
  (Apply.dat (F := Ideal) V c).arrAt_eq_of_cover 6 _ (fun t _ => flushed6_eq V c t) cover6

/-- REGION 1'S VALUE, at row r and column d: the data's entry less the column's new mean, times the reciprocal square
    root of the column's new variance plus eps, the column's batch total and total of squares being the sums of the two
    partials. -/
theorem out_entry (c : Dev nD) (r : Fin 1000000) (d : Fin 128) :
    (Apply.dat (F := Ideal) V c).arrAt 6 cfg1.N (ix2 r d)
      = (Xa V c (ix2 r d) - newMean (Pa V c (ix3 0 0 d) + Pa V c (ix3 1 0 d)) (Ca V c (ix2 0 d)) (Mua V c (ix2 0 d)) nW)
          * Ideal.rsqrt (varTerm (Pa V c (ix3 0 0 d) + Pa V c (ix3 1 0 d)) (Ca V c (ix2 0 d)) (Mua V c (ix2 0 d)) (Qa V c (ix2 0 d))
              ((Sa V c (ix3 0 0 d) + Sa V c (ix3 1 0 d))
                - Ideal.div (Pa V c (ix3 0 0 d) + Pa V c (ix3 1 0 d)) nW * Ideal.div (Pa V c (ix3 0 0 d) + Pa V c (ix3 1 0 d)) nW * nW)
              nW oneW epsW) :=
  congrFun (arrAt6_eq V c) (ix2 r d)

end Cert.KernelIdeal.ApplyValue

end
-- ==== Proof.RefValue.lean ====
/-
  The reference's result at an entry.

  The reference's last stage, read at row `r` and column `d`, is the quotient
      (x(r,d) − new_mean(d)) / sqrt (var(d))
  of the deviations-and-quotient arrangement: the batch mean `(∑ₖ x(k,d)) / N`, the batch's second moment as the sum of
  squared deviations from it, the running statistics of column `d` updated with them.  Every stage is read at an index
  by its own read lemma; a column vector laid as a row and spread down the rows is read at its column, a column's sum
  over the rows at the rows' entries of that column; the two zero initial values of the sums vanish.
-/
import proofs.«173824_g90340342104516_pilotgen1_308_12_alg».proof.Proof.Gen.ReferenceIdeal.Read
import proofs.«173824_g90340342104516_pilotgen1_308_12_alg».proof.Proof.LibWelfordNorm
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Idealize.ShloMosaic.WelfordNorm

/-! ## Where each layout stage reads its operand -/

theorem idx34 (r : Fin 1000000) (d : Fin 128) : idx_main_v34 (ix2 r d) = ix2 (0 : Fin 1) d :=
  funext fun a => by match a with | ⟨0, _⟩ => rfl | ⟨1, _⟩ => rfl
theorem idx31 (r : Fin 1000000) (d : Fin 128) : idx_main_v31 (ix2 r d) = ix2 (0 : Fin 1) d :=
  funext fun a => by match a with | ⟨0, _⟩ => rfl | ⟨1, _⟩ => rfl
theorem idx4 (r : Fin 1000000) (d : Fin 128) : idx_main_v4 (ix2 r d) = ix2 (0 : Fin 1) d :=
  funext fun a => by match a with | ⟨0, _⟩ => rfl | ⟨1, _⟩ => rfl
theorem idx33 (d : Fin 128) : idx_main_v33 (ix2 (0 : Fin 1) d) = ix1 d :=
  funext fun a => by match a with | ⟨0, _⟩ => rfl
theorem idx30 (d : Fin 128) : idx_main_v30 (ix2 (0 : Fin 1) d) = ix1 d :=
  funext fun a => by match a with | ⟨0, _⟩ => rfl
theorem idx3 (d : Fin 128) : idx_main_v3 (ix2 (0 : Fin 1) d) = ix1 d :=
  funext fun a => by match a with | ⟨0, _⟩ => rfl
theorem idx0 (d : Fin 128) (k : Fin 1000000) : idx_main_v0 (ix1 d) k = ix2 k d :=
  funext fun a => by match a with | ⟨0, _⟩ => rfl | ⟨1, _⟩ => rfl
theorem idx7 (d : Fin 128) (k : Fin 1000000) : idx_main_v7 (ix1 d) k = ix2 k d :=
  funext fun a => by match a with | ⟨0, _⟩ => rfl | ⟨1, _⟩ => rfl

/-! ## The result at an entry -/

/-- The reference's result at row `r`, column `d`: the deviations-and-quotient arrangement of column `d`. -/
theorem ref_entry (x0 : (⟨S1000000x128, .f32⟩ : BufTy).Contents (Elt Ideal)) (x1 x2 x3 : (⟨S128, .f32⟩ : BufTy).Contents (Elt Ideal))
    (r : Fin 1000000) (d : Fin 128) :
    val_main_v35 (F := Ideal) x0 x1 x2 x3 (ix2 r d)
      = Ideal.div (x0 (ix2 r d) - newMean (∑ k : Fin 1000000, x0 (ix2 k d)) (x1 (ix1 d)) (x2 (ix1 d)) (Ideal.ofBits .f32 0x49742400#32))
          (Ideal.sqrt (varTerm (∑ k : Fin 1000000, x0 (ix2 k d)) (x1 (ix1 d)) (x2 (ix1 d)) (x3 (ix1 d))
            (∑ k : Fin 1000000, (x0 (ix2 k d) - Ideal.div (∑ j : Fin 1000000, x0 (ix2 j d)) (Ideal.ofBits .f32 0x49742400#32))
              * (x0 (ix2 k d) - Ideal.div (∑ j : Fin 1000000, x0 (ix2 j d)) (Ideal.ofBits .f32 0x49742400#32)))
            (Ideal.ofBits .f32 0x49742400#32) (Ideal.ofBits .f32 0x3F800000#32) (Ideal.ofBits .f32 0x3727C5AC#32))) := by
  simp only [val_main_v35_apply, val_main_v34_apply, val_main_v33_apply, val_main_v32_apply, val_main_v31_apply, val_main_v30_apply, val_main_v29_apply, val_main_v28_apply, val_main_v27_apply, val_main_cst_7_apply, val_main_v26_apply, val_main_v25_apply, val_main_v24_apply, val_main_cst_6_apply, val_main_v23_apply, val_main_v22_apply, val_main_cst_5_apply, val_main_v21_apply, val_main_v20_apply, val_main_v19_apply, val_main_v18_apply, val_main_v17_apply, val_main_cst_4_apply, val_main_v16_apply, val_main_v15_apply, val_main_v14_apply, val_main_v13_apply, val_main_v12_apply, val_main_v11_apply, val_main_cst_3_apply, val_main_v10_apply, val_main_v9_apply, val_main_v8_apply, val_main_cst_2_apply, val_main_v7_apply, val_main_cst_1_apply, val_main_v6_apply, val_main_v5_apply, val_main_v4_apply, val_main_v3_apply, val_main_v2_apply, val_main_v1_apply, val_main_cst_0_apply, val_main_v0_apply, val_main_cst_apply,
    idx34, idx31, idx4, idx33, idx30, idx3, idx0, idx7,
    Ideal.ofBits_def, Ideal.addf_def, Ideal.subf_def, Ideal.mulf_def, Ideal.maximumf_def, Ideal.hostDivf_def,
    Ideal.hostUnary_sqrt_def, Ideal.ofBits_zero_f32, zero_add, newMean, varTerm]

end Cert.ReferenceIdeal.RefValue

end
-- ==== Proof.Consts.lean ====
/-
  The float constants both programs spell, as the extended reals their words denote: `1000000.0` (the batch size),
  `1.0` (the correction of the sample count and its floor) and the variance's `1e-5` (the nearest binary32 value,
  `10995116 · 2⁻⁴⁰`, a positive real).  Stated once, so that no other module unfolds a word.
-/
import Idealize.ShloMosaic.PureOps.Ideal

noncomputable section

namespace Cert.Consts

open Idealize.ShloMosaic

/-- `1000000.0` denotes the real `1000000`. -/
theorem ofBits_n : Ideal.ofBits .f32 0x49742400#32 = ((1000000 : ℝ) : EReal) := by
  simp [Ideal.ofBits, Ideal.ieee, -EReal.coe_mul]; norm_num

/-- `1.0` denotes the real `1`. -/
theorem ofBits_one : Ideal.ofBits .f32 0x3F800000#32 = ((1 : ℝ) : EReal) := by
  simp [Ideal.ofBits, Ideal.ieee, -EReal.coe_mul]; norm_num

/-- The variance's epsilon denotes a positive real. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

end Cert.Consts

end
-- ==== Proof.ColumnLaw.lean ====
/-
  The law of one column, over the programs' own constants.

  For a column `x` of 1000000 real entries and real running statistics with `count ≥ 0` and `m2 ≥ 0`, the
  raw-sums-and-reciprocal-root arrangement of the normalised entry equals the deviations-and-quotient arrangement,
  the batch size, the unit and the variance's epsilon being the words both programs spell (`1000000`, `1`, a
  positive real).
-/
import proofs.«173824_g90340342104516_pilotgen1_308_12_alg».proof.Proof.LibWelfordNorm
import proofs.«173824_g90340342104516_pilotgen1_308_12_alg».proof.Proof.Consts

noncomputable section

namespace Cert.ColumnLaw

open Idealize.ShloMosaic Idealize.ShloMosaic.WelfordNorm Cert.Consts

theorem column_law (x : Fin 1000000 → EReal) (hx : ∀ k, ∃ r : ℝ, x k = (r : EReal)) (cnt mu q : EReal)
    (hc : ∃ r : ℝ, cnt = (r : EReal)) (hmu : ∃ r : ℝ, mu = (r : EReal)) (hq : ∃ r : ℝ, q = (r : EReal))
    (hc0 : 0 ≤ cnt) (hq0 : 0 ≤ q) (i : Fin 1000000) :
    (x i - newMean (∑ k, x k) cnt mu (Ideal.ofBits .f32 0x49742400#32))
        * Ideal.rsqrt (varTerm (∑ k, x k) cnt mu q
            ((∑ k, x k * x k) - Ideal.div (∑ k, x k) (Ideal.ofBits .f32 0x49742400#32)
              * Ideal.div (∑ k, x k) (Ideal.ofBits .f32 0x49742400#32) * Ideal.ofBits .f32 0x49742400#32)
            (Ideal.ofBits .f32 0x49742400#32) (Ideal.ofBits .f32 0x3F800000#32) (Ideal.ofBits .f32 0x3727C5AC#32))
      = Ideal.div (x i - newMean (∑ k, x k) cnt mu (Ideal.ofBits .f32 0x49742400#32))
          (Ideal.sqrt (varTerm (∑ k, x k) cnt mu q
            (∑ k, (x k - Ideal.div (∑ j, x j) (Ideal.ofBits .f32 0x49742400#32))
              * (x k - Ideal.div (∑ j, x j) (Ideal.ofBits .f32 0x49742400#32)))
            (Ideal.ofBits .f32 0x49742400#32) (Ideal.ofBits .f32 0x3F800000#32) (Ideal.ofBits .f32 0x3727C5AC#32))) := by
  choose x' hx' using hx
  obtain ⟨c', rfl⟩ := hc
  obtain ⟨mu', rfl⟩ := hmu
  obtain ⟨q', rfl⟩ := hq
  obtain ⟨e, he, hE⟩ := ofBits_eps
  obtain rfl : x = fun k => (x' k : EReal) := funext hx'
  rw [ofBits_n, ofBits_one, hE]
  exact norm_eq x' i c' mu' q' 1000000 e (EReal.coe_nonneg.1 hc0) (EReal.coe_nonneg.1 hq0) (by norm_num) (by simp) he

end Cert.ColumnLaw

end
-- ==== Proof.LibBlockSum.lean ====
/-
  A sum over `a · b` (or `a · b · c`) consecutive positions, grouped into `a` runs of `b` (of `b` runs of `c`).

  In a commutative monoid, for `f` on `Fin n` with `n = a · b`,
      ∑ₖ f k = ∑ᵢ ∑ⱼ f (i · b + j),
  the positions `i · b + j` (`i < a`, `j < b`) being exactly the positions below `a · b`, each once; applied twice,
  for `n = a · b · c`,  ∑ₖ f k = ∑ᵢ ∑ₛ ∑ᵣ f ((i · b + s) · c + r).
-/
import Mathlib

namespace Idealize.ShloMosaic.BlockSum

theorem pos_lt {a b : ℕ} (i : Fin a) (j : Fin b) : i.val * b + j.val < a * b :=
  Nat.lt_of_lt_of_le (Nat.add_lt_add_left j.2 _) (by rw [← Nat.succ_mul]; exact Nat.mul_le_mul_right _ i.2)

/-- Two levels. -/
theorem sum_runs {M : Type*} [AddCommMonoid M] (a b n : ℕ) (h : a * b = n) (f : Fin n → M) :
    ∑ k, f k = ∑ i : Fin a, ∑ j : Fin b, f ⟨i.val * b + j.val, h ▸ pos_lt i j⟩ := by
  subst h
  rw [← (finProdFinEquiv (m := a) (n := b)).sum_comp, Fintype.sum_prod_type]
  refine Finset.sum_congr rfl fun i _ => Finset.sum_congr rfl fun j _ => congrArg f (Fin.ext ?_)
  simp only [finProdFinEquiv, Equiv.coe_fn_mk]
  rw [Nat.add_comm, Nat.mul_comm]

/-- Three levels. -/
theorem sum_runs3 {M : Type*} [AddCommMonoid M] (a b c n : ℕ) (h : a * b * c = n) (f : Fin n → M) :
    ∑ k, f k = ∑ i : Fin a, ∑ s : Fin b, ∑ r : Fin c,
      f ⟨(i.val * b + s.val) * c + r.val, h ▸ pos_lt (⟨i.val * b + s.val, pos_lt i s⟩ : Fin (a * b)) r⟩ := by
  rw [sum_runs (a * b) c n h f, sum_runs a b (a * b) rfl]

end Idealize.ShloMosaic.BlockSum
-- ==== Proof.KernelValue.lean ====
/-
  The kernel's result, entry by entry, is the reference's.

  The result array ends at what the normalisation pass leaves of it: at row `r`, column `d`, the
  raw-sums-and-reciprocal-root arrangement over the arrays that pass finds.  Those are: the data array as launched; the
  two partial-sum arrays the statistics pass left, whose entries at chunk `i`, column `d` are the sums over the chunk's
  ten blocks of fifty thousand rows of the column's values (of their squares), so that the two partials together are
  the sums over all 1000000 rows; and the three running statistics, each laid as one row.  Under the precondition
  (every entry real, count and m2 not negative) the law of one column turns this into the deviations-and-quotient
  arrangement, which is the reference's last stage read at `(r, d)`.
-/
import proofs.«173824_g90340342104516_pilotgen1_308_12_alg».proof.Proof.Run
import proofs.«173824_g90340342104516_pilotgen1_308_12_alg».proof.Proof.StatsValue
import proofs.«173824_g90340342104516_pilotgen1_308_12_alg».proof.Proof.StatsArr
import proofs.«173824_g90340342104516_pilotgen1_308_12_alg».proof.Proof.ApplyValue
import proofs.«173824_g90340342104516_pilotgen1_308_12_alg».proof.Proof.RefValue
import proofs.«173824_g90340342104516_pilotgen1_308_12_alg».proof.Proof.ColumnLaw
import proofs.«173824_g90340342104516_pilotgen1_308_12_alg».proof.Proof.LibBlockSum
import Idealize.ShloMosaic.Lib.ValueIdx
import Idealize.ShloMosaic.Lib.Pipeline.Value
import Idealize.ShloMosaic.Lib.StableHlo.Run

set_option maxRecDepth 16384

noncomputable section

namespace Cert.KernelIdeal.KernelValue

open Cert.KernelIdeal Cert.KernelIdeal.Gen Cert.KernelIdeal.Run
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-! ## What the statistics pass leaves: the chunks' column sums -/

section Partials

variable (V : (c : Dev nD) → (b : Ref sig .tc) → Buf (Elt Ideal) ((c : Thread nD τ).loc b))

/-- Chunk `i`'s entry of the first output array: the last point of the chunk is the one whose write-back survives,
    and its buffer holds the sum over the chunk's ten blocks of the blocks' column sums. -/
theorem psum_entry (c : Dev nD) (i : Fin 2) (d : Fin 128) :
    (Stats.dat (F := Ideal) V c).arrAt 1 cfg0.N (ix3 i 0 d)
      = ∑ s : Fin 10, ∑ r : Fin 50000, StatsValue.X V c
          (ix2 ⟨(i.val * 10 + s.val) * 50000 + r.val, by have := i.2; have := s.2; have := r.2; omega⟩ d) :=
  (StatsArr.arr1_entry V c i d).trans (StatsValue.acc1_sum V c i d _)

/-- The same for the second output array and the squares. -/
theorem psq_entry (c : Dev nD) (i : Fin 2) (d : Fin 128) :
    (Stats.dat (F := Ideal) V c).arrAt 2 cfg0.N (ix3 i 0 d)
      = ∑ s : Fin 10, ∑ r : Fin 50000, StatsValue.X V c
          (ix2 ⟨(i.val * 10 + s.val) * 50000 + r.val, by have := i.2; have := s.2; have := r.2; omega⟩ d)
        * StatsValue.X V c
          (ix2 ⟨(i.val * 10 + s.val) * 50000 + r.val, by have := i.2; have := s.2; have := r.2; omega⟩ d) :=
  (StatsArr.arr2_entry V c i d).trans (StatsValue.acc2_sum V c i d _)

end Partials

/-! ## What the normalisation pass finds in its arrays -/

/-- The data array as the second pass finds it is the launch's: the first pass reads it through an input window and
    no reshape writes it. -/
theorem V2_x (c : Dev nD) : V2 m ρ c (Pipeline.arrRef spec1 0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((Stats.dat (V0 m ρ) c).arrAt_in 0 rfl _).trans (Stats.A_eq (V0 m ρ) c 0))
    _ = m ((c : Thread nD τ).loc main_arg0) := rfl

/-- The partial sums (of the values, of their squares) as the second pass finds them are what the first pass's
    write-backs leave: no reshape writes them. -/
theorem V2_psum (c : Dev nD) : V2 m ρ c (Pipeline.arrRef spec1 1) = (Stats.dat (V0 m ρ) c).arrAt 1 cfg0.N :=
  calc W2 m ρ c (Proc.devRef .tc main_v0_0)
    _ = W1 m ρ c (Proc.devRef .tc main_v0_0) := StableHlo.after_of_forall_not_mem (b := Proc.devRef .tc main_v0_0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (Stats.dat (V0 m ρ) c).arrAt 1 cfg0.N := W1_arr m ρ c 1
theorem V2_psq (c : Dev nD) : V2 m ρ c (Pipeline.arrRef spec1 2) = (Stats.dat (V0 m ρ) c).arrAt 2 cfg0.N :=
  calc W2 m ρ c (Proc.devRef .tc main_v0_1)
    _ = W1 m ρ c (Proc.devRef .tc main_v0_1) := StableHlo.after_of_forall_not_mem (b := Proc.devRef .tc main_v0_1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (Stats.dat (V0 m ρ) c).arrAt 2 cfg0.N := W1_arr m ρ c 2

/-- The running statistics as the second pass finds them: each vector laid as one row, read at its column. -/
theorem V2_count (c : Dev nD) (d : Fin 128) :
    (V2 m ρ c main_v1 : S1x128.Idx → EReal) (ix2 (0 : Fin 1) d) = (m ((c : Thread nD τ).loc main_arg1) : S128.Idx → EReal) (ix1 d) := by
  have e : (V2 m ρ c main_v1 : S1x128.Idx → EReal)
      = shapeCast S1x128 (W1 m ρ c (Proc.devRef .tc main_arg1) : S128.Idx → EReal) shapeCasts_S128_S1x128 := by
    show StableHlo.after hostOps1 (W1 m ρ c) (Proc.devRef .tc main_v1) = _
    after_results; rfl
  rw [e, shapeCast_apply _ _ (ix2 (0 : Fin 1) d) (ix1 d) (by rw [Shape.rowMajor_val_one, Shape.rowMajor_val_two]; simp [ix1, ix2]),
    W1_of_ne m ρ c main_arg1 (by decide)]

theorem V2_mean (c : Dev nD) (d : Fin 128) :
    (V2 m ρ c main_v2 : S1x128.Idx → EReal) (ix2 (0 : Fin 1) d) = (m ((c : Thread nD τ).loc main_arg2) : S128.Idx → EReal) (ix1 d) := by
  have e : (V2 m ρ c main_v2 : S1x128.Idx → EReal)
      = shapeCast S1x128 (W1 m ρ c (Proc.devRef .tc main_arg2) : S128.Idx → EReal) shapeCasts_S128_S1x128 := by
    show StableHlo.after hostOps1 (W1 m ρ c) (Proc.devRef .tc main_v2) = _
    after_results; rfl
  rw [e, shapeCast_apply _ _ (ix2 (0 : Fin 1) d) (ix1 d) (by rw [Shape.rowMajor_val_one, Shape.rowMajor_val_two]; simp [ix1, ix2]),
    W1_of_ne m ρ c main_arg2 (by decide)]

theorem V2_m2 (c : Dev nD) (d : Fin 128) :
    (V2 m ρ c main_v3 : S1x128.Idx → EReal) (ix2 (0 : Fin 1) d) = (m ((c : Thread nD τ).loc main_arg3) : S128.Idx → EReal) (ix1 d) := by
  have e : (V2 m ρ c main_v3 : S1x128.Idx → EReal)
      = shapeCast S1x128 (W1 m ρ c (Proc.devRef .tc main_arg3) : S128.Idx → EReal) shapeCasts_S128_S1x128 := by
    show StableHlo.after hostOps1 (W1 m ρ c) (Proc.devRef .tc main_v3) = _
    after_results; rfl
  rw [e, shapeCast_apply _ _ (ix2 (0 : Fin 1) d) (ix1 d) (by rw [Shape.rowMajor_val_one, Shape.rowMajor_val_two]; simp [ix1, ix2]),
    W1_of_ne m ρ c main_arg3 (by decide)]

/-! ## The launch contents, as arrays of extended reals -/

/-- The data array as launched. -/
abbrev X0 (c : Dev nD) : S1000000x128.Idx → EReal := m ((c : Thread nD τ).loc main_arg0)
/-- The running count, mean and second moment as launched. -/
abbrev C0 (c : Dev nD) : S128.Idx → EReal := m ((c : Thread nD τ).loc main_arg1)
abbrev Mu0 (c : Dev nD) : S128.Idx → EReal := m ((c : Thread nD τ).loc main_arg2)
abbrev Q0 (c : Dev nD) : S128.Idx → EReal := m ((c : Thread nD τ).loc main_arg3)

/-! ## The two partials together -/

/-- Two chunks of ten blocks of fifty thousand rows are the 1000000 rows. -/
theorem two_chunks (g : Fin 1000000 → EReal) :
    (∑ s : Fin 10, ∑ r : Fin 50000, g ⟨((0 : Fin 2).val * 10 + s.val) * 50000 + r.val, BlockSum.pos_lt (⟨(0 : Fin 2).val * 10 + s.val, BlockSum.pos_lt (0 : Fin 2) s⟩ : Fin (2 * 10)) r⟩)
      + (∑ s : Fin 10, ∑ r : Fin 50000, g ⟨((1 : Fin 2).val * 10 + s.val) * 50000 + r.val, BlockSum.pos_lt (⟨(1 : Fin 2).val * 10 + s.val, BlockSum.pos_lt (1 : Fin 2) s⟩ : Fin (2 * 10)) r⟩)
      = ∑ k, g k := by
  rw [BlockSum.sum_runs3 2 10 50000 1000000 rfl g, Fin.sum_univ_two]

/-! ## The result at an entry -/

/-- Under the precondition's facts the result array at row `r`, column `d` is the reference's last stage there. -/
theorem kernel_entry (c : Dev nD)
    (hx : ∀ i, ∃ a : ℝ, X0 m c i = (a : EReal)) (hc : ∀ i, ∃ a : ℝ, C0 m c i = (a : EReal))
    (hmu : ∀ i, ∃ a : ℝ, Mu0 m c i = (a : EReal)) (hq : ∀ i, ∃ a : ℝ, Q0 m c i = (a : EReal))
    (hc0 : ∀ i, (0 : EReal) ≤ C0 m c i) (hq0 : ∀ i, (0 : EReal) ≤ Q0 m c i)
    (r : Fin 1000000) (d : Fin 128) :
    W3 m ρ c (Proc.devRef .tc main_v4) (ix2 r d)
      = Cert.ReferenceIdeal.Read.val_main_v35 (F := Ideal) (X0 m c) (C0 m c) (Mu0 m c) (Q0 m c) (ix2 r d) := by
  have eP : ApplyValue.Pa (V2 m ρ) c = (Stats.dat (V0 m ρ) c).arrAt 1 cfg0.N := V2_psum m ρ c
  have eS : ApplyValue.Sa (V2 m ρ) c = (Stats.dat (V0 m ρ) c).arrAt 2 cfg0.N := V2_psq m ρ c
  have hP : ApplyValue.Pa (V2 m ρ) c (ix3 0 0 d) + ApplyValue.Pa (V2 m ρ) c (ix3 1 0 d) = ∑ k : Fin 1000000, X0 m c (ix2 k d) := by
    rw [eP, psum_entry (V0 m ρ) c 0 d, psum_entry (V0 m ρ) c 1 d]
    exact two_chunks fun k => X0 m c (ix2 k d)
  have hS : ApplyValue.Sa (V2 m ρ) c (ix3 0 0 d) + ApplyValue.Sa (V2 m ρ) c (ix3 1 0 d)
      = ∑ k : Fin 1000000, X0 m c (ix2 k d) * X0 m c (ix2 k d) := by
    rw [eS, psq_entry (V0 m ρ) c 0 d, psq_entry (V0 m ρ) c 1 d]
    exact two_chunks fun k => X0 m c (ix2 k d) * X0 m c (ix2 k d)
  have hX : ApplyValue.Xa (V2 m ρ) c = X0 m c := V2_x m ρ c
  have hC : ApplyValue.Ca (V2 m ρ) c (ix2 0 d) = C0 m c (ix1 d) := V2_count m ρ c d
  have hMu : ApplyValue.Mua (V2 m ρ) c (ix2 0 d) = Mu0 m c (ix1 d) := V2_mean m ρ c d
  have hQ : ApplyValue.Qa (V2 m ρ) c (ix2 0 d) = Q0 m c (ix1 d) := V2_m2 m ρ c d
  rw [W3_main_v4, ApplyValue.out_entry (V2 m ρ) c r d, Cert.ReferenceIdeal.RefValue.ref_entry, hP, hS, hX, hC, hMu, hQ]
  exact Cert.ColumnLaw.column_law (fun k => X0 m c (ix2 k d)) (fun k => hx _) _ _ _ (hc _) (hmu _) (hq _) (hc0 _) (hq0 _) r

/-- The whole result array is the reference's last stage over the kernel's own arguments. -/
theorem kernel_value (c : Dev nD)
    (hx : ∀ i, ∃ a : ℝ, X0 m c i = (a : EReal)) (hc : ∀ i, ∃ a : ℝ, C0 m c i = (a : EReal))
    (hmu : ∀ i, ∃ a : ℝ, Mu0 m c i = (a : EReal)) (hq : ∀ i, ∃ a : ℝ, Q0 m c i = (a : EReal))
    (hc0 : ∀ i, (0 : EReal) ≤ C0 m c i) (hq0 : ∀ i, (0 : EReal) ≤ Q0 m c i) :
    W3 m ρ c (Proc.devRef .tc main_v4)
      = Cert.ReferenceIdeal.Read.val_main_v35 (F := Ideal) (X0 m c) (C0 m c) (Mu0 m c) (Q0 m c) := by
  funext j
  obtain ⟨r, d, rfl⟩ : ∃ (r : Fin 1000000) (d : Fin 128), j = ix2 r d := ⟨j 0, j 1, eq_ix2 j⟩
  exact kernel_entry m ρ c hx hc hmu hq hc0 hq0 r d

end Cert.KernelIdeal.KernelValue

end
-- ==== Proof.lean ====
/-
  The certificate: a two-pass normalisation of a batch by running (Welford / Chan) statistics against its plain
  reference.

  The kernel makes two pipelined passes over the data.  The first accumulates, per half of the rows, the column sums
  and column sums of squares over ten blocks of fifty thousand rows.  The second adds the two halves, folds the batch
  into the running count, mean and second moment, and writes `(x − new_mean) · rsqrt (new_m2 / max (new_count − 1) 1 + ε)`,
  with the batch's second moment computed from the raw sums, `∑ x² − mean_b · mean_b · n`.  The reference computes the
  batch's second moment about the batch mean, `∑ (x − mean_b)²`, and divides by the square root.

  Frames: each program runs to the end, faults nowhere and leaves its four arguments as launched — for the kernel (at
  words and at the extended reals) by following every buffer outside the kernels' scopes through the three items of
  @main; for the reference by its run.  The idealisation rewrote nothing.  Value: with every input real and the running
  count and second moment not negative, the two second moments are one real, the variance under the root is a
  positive real, and a product with a reciprocal root is the quotient by the root; entry by entry the two results are
  equal on the extended reals.
-/
import proofs.«173824_g90340342104516_pilotgen1_308_12_alg».proof.Defs
import proofs.«173824_g90340342104516_pilotgen1_308_12_alg».proof.Proof.Gen.Kernel
import proofs.«173824_g90340342104516_pilotgen1_308_12_alg».proof.Proof.Gen.Kernel.Skeleton
import proofs.«173824_g90340342104516_pilotgen1_308_12_alg».proof.Proof.Gen.Kernel.Launch
import proofs.«173824_g90340342104516_pilotgen1_308_12_alg».proof.Proof.Gen.Kernel.Points
import proofs.«173824_g90340342104516_pilotgen1_308_12_alg».proof.Proof.Gen.KernelIdeal
import proofs.«173824_g90340342104516_pilotgen1_308_12_alg».proof.Proof.Gen.KernelIdeal.Skeleton
import proofs.«173824_g90340342104516_pilotgen1_308_12_alg».proof.Proof.Gen.KernelIdeal.Launch
import proofs.«173824_g90340342104516_pilotgen1_308_12_alg».proof.Proof.Gen.KernelIdeal.Points
import proofs.«173824_g90340342104516_pilotgen1_308_12_alg».proof.Proof.Gen.ReferenceIdeal
import proofs.«173824_g90340342104516_pilotgen1_308_12_alg».proof.Proof.Gen.ReferenceIdeal.Run
import proofs.«173824_g90340342104516_pilotgen1_308_12_alg».proof.Proof.Gen.ReferenceIdeal.Read
import proofs.«173824_g90340342104516_pilotgen1_308_12_alg».proof.Proof.Gen.Pre_finite_inputs
import proofs.«173824_g90340342104516_pilotgen1_308_12_alg».proof.Proof.Run
import proofs.«173824_g90340342104516_pilotgen1_308_12_alg».proof.Proof.RunW
import proofs.«173824_g90340342104516_pilotgen1_308_12_alg».proof.Proof.PreRead
import proofs.«173824_g90340342104516_pilotgen1_308_12_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched: its run, the result dropped. -/
theorem frame_k : Cert.frame_Kernel := fun m ρ _ =>
  (θ_run Cert.Kernel.defs _ _).mono (fun _ h c => (h c).2) (Cert.Kernel.Run.run (F := Bits) m ρ)

/-- The same at the extended reals. -/
theorem frame_ki : Cert.frame_KernelIdeal := fun m ρ _ =>
  (θ_run Cert.KernelIdeal.defs _ _).mono (fun _ h c => (h c).2) (Cert.KernelIdeal.Run.run (F := Ideal) m ρ)

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's result array is the
    reference's last stage over the kernel's own arguments (under the precondition, read back entry by entry), and the
    reference's run ends at that stage over its arguments, which are the kernel's. -/
theorem algebraic : Cert.algebraic_KernelIdeal_ReferenceIdeal := by
  intro m ρ m' ρ' hpre hagree
  refine ⟨fun c => Cert.KernelIdeal.Run.W3 m ρ c (Proc.devRef .tc Cert.KernelIdeal.main_v4), Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hc, hmu, hq, hc0, hq0⟩ := Cert.Pre_finite_inputs.PreRead.pre_read _ _ _ _ (hpre c)
  refine (Cert.ReferenceIdeal.Read.val_main_v35_eq _ _ _ _).trans ?_
  rw [(hagree c).1, (hagree c).2.1, (hagree c).2.2.1, (hagree c).2.2.2]
  exact (Cert.KernelIdeal.KernelValue.kernel_value m ρ c hx hc hmu hq hc0 hq0).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
